-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x40, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x40, .f32⟩
  | .hbm, ⟨77, _⟩ => ⟨S1700000x1, .f32⟩
  | .hbm, ⟨78, _⟩ => ⟨S1700000x40, .f32⟩
  | .hbm, ⟨79, _⟩ => ⟨S1700000x40, .f32⟩
  | .hbm, ⟨80, _⟩ => ⟨S_, .f32⟩
  | .hbm, ⟨81, _⟩ => ⟨S100000x40, .f32⟩
  | .hbm, ⟨82, _⟩ => ⟨S1700000x1, .i32⟩
  | .hbm, ⟨83, _⟩ => ⟨S100000x40, .f32⟩
  | .hbm, ⟨84, _⟩ => ⟨S1x40, .f32⟩
  | .hbm, ⟨85, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x40, .f32⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x40, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x40, .f32⟩
  | .hbm, ⟨82, _⟩ => ⟨S1700000x1, .f32⟩
  | .hbm, ⟨83, _⟩ => ⟨S1700000x40, .f32⟩
  | .hbm, ⟨84, _⟩ => ⟨S1700000x40, .f32⟩
  | .hbm, ⟨85, _⟩ => ⟨S_, .f32⟩
  | .hbm, ⟨86, _⟩ => ⟨S100000x40, .f32⟩
  | .hbm, ⟨87, _⟩ => ⟨S1700000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its result array named. The program is eight segments — three stretches of host
  operations, the first matrix product's region, a gather / scatter-add stretch, the second region, a second
  gather / scatter-add stretch, the log-softmax region. The generated frame walks the TensorCore's buffer contents
  through them as a fold `W0 … W8` and keeps, of the last contents `W8`, only that the argument arrays are as launched.
  Here the same launch over the same segments keeps one more buffer: the returned array `main_v62` ends at `W8`'s
  contents of it. What those contents ARE is the value proof's business (the other modules).
-/
import proofs.«138161_j62259845923389_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the returned array holds the last
    boundary's contents `W8` of it, and the six argument arrays are as launched. -/
theorem run_W8 : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.Spec.lean ====
/-
  What both programs compute, as named stages over whole arrays (any float instance). A two-layer graph convolution:
  with self-loops appended to the edge list, `srcIdx` / `dstIdx` are the source and target node of every edge,
  `edgeWeight` is d(src)^(-1/2) · d(dst)^(-1/2) for the in-degree d (with the reciprocal root of max(d, 1) kept only where
  d > 0), and one layer is: multiply the node features by a weight matrix, gather the rows at the edges' sources, scale
  each by its edge's weight, scatter-add them at the edges' targets (`aggregate64` / `aggregate40`), add a bias row.
  Layer one ends in max(·, 0), layer two in a row-wise log-softmax: x − max − log Σ exp(x − max) along each row.
  The stages are spelt with the host operations of the reference program, so that the reference's run meets them
  operation by operation; a bias enters as a one-row matrix (`rowOf64`, `rowOf40`) broadcast down the rows.
-/
import proofs.«138161_j62259845923389_1_alg».proof.Proof.Gen.ReferenceIdeal

noncomputable section

namespace Cert.Spec

open Idealize.ShloMosaic Cert.ReferenceIdeal Cert.ReferenceIdeal.Facts₀ Cert.ReferenceIdeal.Facts

variable {F : FTy → Type} [FloatOps F]

/-- The source node of every edge: row 0 of the edge list as a flat vector, the self-loops 0 … 99999 appended. -/
def srcIdx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The target node of every edge: row 1 of the edge list likewise. -/
def dstIdx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index as a gather's start index: a negative one counts from the end (i + 100000), as a column. -/
def startIdx (ix : (⟨S1700000, .i32⟩ : BufTy).Contents (Elt F)) : (⟨S1700000x1, .i32⟩ : BufTy).Contents (Elt F) :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- Every node's in-degree (self-loop included): ones scatter-added at the edges' targets. -/
def degree (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (broadcastInDim S1700000x1 ![0] bcast_S1700000_S1700000x1_0 dst) (broadcastInDim S1700000 ![] bcast_S_S1700000 (constant S_ .f32 0x3F800000#32))

/-- d^(-1/2) where d > 0 (taken of max(d, 1)), else 0. -/
def invSqrtDegree (dst : (⟨S1700000, .i32⟩ : BufTy).Contents (Elt F)) : (⟨S100000, .f32⟩ : BufTy).Contents (Elt F) :=
  select (cmpf .ogt (degree (F := F) dst) (broadcastInDim S100000 ![] bcast_S_S100000 (constant S_ .f32 0x00000000#32)))
    (Host.rsqrt (maximumf (degree (F := F) dst) (broadcastInDim S100000 ![] bcast_S_S100000 (constant S_ .f32 0x3F800000#32))))
    (broadcastInDim S100000 ![] bcast_S_S100000 (constant S_ .f32 0x00000000#32))

/-- Each edge's weight: the product of the two end nodes' d^(-1/2). -/
def edgeWeight (src dst : (⟨S1700000, .i32⟩ : BufTy).Contents (Elt F)) : (⟨S1700000, .f32⟩ : BufTy).Contents (Elt F) :=
  mulf (Host.gather gather_S100000_S1700000x1_S1700000_n_0_n_n_0_1_1 (invSqrtDegree (F := F) dst) (startIdx src))
    (Host.gather gather_S100000_S1700000x1_S1700000_n_0_n_n_0_1_1 (invSqrtDegree (F := F) dst) (startIdx dst))

/-- The weighted neighbourhood sum of 64-wide rows: gather at the sources, scale by the edge's weight, scatter-add at the targets. -/
def aggregate64 (h : (⟨S100000x64, .f32⟩ : BufTy).Contents (Elt F)) (src dst : (⟨S1700000, .i32⟩ : BufTy).Contents (Elt F))
    (wt : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 h (startIdx src))
      (broadcastInDim S1700000x64 ![0, 1] bcast_S1700000x1_S1700000x64_0_1 (broadcastInDim S1700000x1 ![0] bcast_S1700000_S1700000x1_0 wt)))

/-- The same of 40-wide rows. -/
def aggregate40 (h : (⟨S100000x40, .f32⟩ : BufTy).Contents (Elt F)) (src dst : (⟨S1700000, .i32⟩ : BufTy).Contents (Elt F))
    (wt : (⟨S1700000, .f32⟩ : BufTy).Contents (Elt F)) : (⟨S100000x40, .f32⟩ : BufTy).Contents (Elt F) :=
  Host.scatterAdd scatter_S100000x40_S1700000x1_S1700000x40_1_0_0_1 (broadcastInDim S100000x40 ![] bcast_S_S100000x40 (constant S_ .f32 0x00000000#32))
    (broadcastInDim S1700000x1 ![0] bcast_S1700000_S1700000x1_0 dst)
    (mulf (Host.gather gather_S100000x40_S1700000x1_S1700000x40_1_0_n_n_0_1_140 h (startIdx src))
      (broadcastInDim S1700000x40 ![0, 1] bcast_S1700000x1_S1700000x40_0_1 (broadcastInDim S1700000x1 ![0] bcast_S1700000_S1700000x1_0 wt)))

/-- The first feature transform: x · W1. -/
def transform1 (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none x w

/-- A bias vector as a one-row matrix. -/
def rowOf64 (b : (⟨S64, .f32⟩ : BufTy).Contents (Elt F)) : (⟨S1x64, .f32⟩ : BufTy).Contents (Elt F) :=
  broadcastInDim S1x64 ![1] bcast_S64_S1x64_1 b
def rowOf40 (b : (⟨S40, .f32⟩ : BufTy).Contents (Elt F)) : (⟨S1x40, .f32⟩ : BufTy).Contents (Elt F) :=
  broadcastInDim S1x40 ![1] bcast_S40_S1x40_1 b

/-- max(a + bias row, 0), the hidden activations. -/
def hidden (a : (⟨S100000x64, .f32⟩ : BufTy).Contents (Elt F)) (brow : (⟨S1x64, .f32⟩ : BufTy).Contents (Elt F)) :
    (⟨S100000x64, .f32⟩ : BufTy).Contents (Elt F) :=
  maximumf (addf a (broadcastInDim S100000x64 ![0, 1] bcast_S1x64_S100000x64_0_1 brow))
    (broadcastInDim S100000x64 ![] bcast_S_S100000x64 (constant S_ .f32 0x00000000#32))

/-- The second feature transform: max(a + b1, 0) · W2. -/
def transform2 (a : (⟨S100000x64, .f32⟩ : BufTy).Contents (Elt F)) (brow : (⟨S1x64, .f32⟩ : BufTy).Contents (Elt F))
    (w : (⟨S64x40, .f32⟩ : BufTy).Contents (Elt F)) : (⟨S100000x40, .f32⟩ : BufTy).Contents (Elt F) :=
  Host.dotGeneral dot_S100000x64_S64x40_S100000x40_1_0_0_1_n_n none (hidden (F := F) a brow) w

/-- The logits: a + bias row. -/
def logits (a : (⟨S100000x40, .f32⟩ : BufTy).Contents (Elt F)) (brow : (⟨S1x40, .f32⟩ : BufTy).Contents (Elt F)) :
    (⟨S100000x40, .f32⟩ : BufTy).Contents (Elt F) :=
  addf a (broadcastInDim S100000x40 ![0, 1] bcast_S1x40_S100000x40_0_1 brow)

/-- Every row's maximum (from −∞, and once more against −∞). -/
def rowMax (z : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x40_S100000_d1 h_S_)

/-- z − its row's maximum. -/
def shifted (z : (⟨S100000x40, .f32⟩ : BufTy).Contents (Elt F)) : (⟨S100000x40, .f32⟩ : BufTy).Contents (Elt F) :=
  subf z (broadcastInDim S100000x40 ![0, 1] bcast_S100000x1_S100000x40_0_1 (broadcastInDim S100000x1 ![0] bcast_S100000_S100000x1_0 (rowMax (F := F) z)))

/-- The row-wise log-softmax: (z − max) − log Σ exp(z − max). -/
def logSoftmax (z : (⟨S100000x40, .f32⟩ : BufTy).Contents (Elt F)) : (⟨S100000x40, .f32⟩ : BufTy).Contents (Elt F) :=
  subf (shifted (F := F) z)
    (broadcastInDim S100000x40 ![0, 1] bcast_S100000x1_S100000x40_0_1
      (Host.log (broadcastInDim S100000x1 ![0] bcast_S100000_S100000x1_0
        (Host.reduceAdd (Host.exp (shifted (F := F) z)) (constant S_ .f32 0x00000000#32) reducesTo_S100000x40_S100000_d1 h_S_))))

/-- The output layer: log-softmax of (a + bias row). -/
def output (a : (⟨S100000x40, .f32⟩ : BufTy).Contents (Elt F)) (brow : (⟨S1x40, .f32⟩ : BufTy).Contents (Elt F)) :
    (⟨S100000x40, .f32⟩ : BufTy).Contents (Elt F) :=
  logSoftmax (F := F) (logits (F := F) a brow)

/-- The whole network as one function of the six argument arrays. -/
def network (x : (⟨S100000x128, .f32⟩ : BufTy).Contents (Elt F)) (e : (⟨S2x1600000, .i32⟩ : BufTy).Contents (Elt F))
    (w1 : (⟨S128x64, .f32⟩ : BufTy).Contents (Elt F)) (b1 : (⟨S64, .f32⟩ : BufTy).Contents (Elt F))
    (w2 : (⟨S64x40, .f32⟩ : BufTy).Contents (Elt F)) (b2 : (⟨S40, .f32⟩ : BufTy).Contents (Elt F)) :
    (⟨S100000x40, .f32⟩ : BufTy).Contents (Elt F) :=
  output (F := F)
    (aggregate40 (F := F)
      (transform2 (F := F)
        (aggregate64 (F := F) (transform1 (F := F) x w1) (srcIdx (F := F) e) (dstIdx (F := F) e) (edgeWeight (F := F) (srcIdx (F := F) e) (dstIdx (F := F) e)))
        (rowOf64 (F := F) b1) w2)
      (srcIdx (F := F) e) (dstIdx (F := F) e) (edgeWeight (F := F) (srcIdx (F := F) e) (dstIdx (F := F) e)))
    (rowOf40 (F := F) b2)

end Cert.Spec

end
-- ==== Proof.KernelStages.lean ====
/-
  The kernel's host stretches, one at a time, from ANY buffer contents W they start from: which stage of the
  specification each leaves in the buffers later stretches and regions read, and which buffers it leaves alone.
  Stretch 0 builds the two index vectors (edge sources and targets with the self-loops appended), the in-degrees and
  the two branches of "d^(-1/2) where d > 0"; stretch 0_1 selects between them; stretch 0_2 gathers the two end nodes'
  values per edge and multiplies them (the edge weights); stretches 1 and 2 are the weighted neighbourhood sums of the
  64-wide and 40-wide rows, each followed by a bias reshaped to a one-row matrix.
-/
import proofs.«138161_j62259845923389_1_alg».proof.Proof.Spec
import proofs.«138161_j62259845923389_1_alg».proof.Proof.Gen.KernelIdeal.Launch
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-! ## Stretch 0: index vectors, degrees, the two branches -/

theorem ops0_v3 : after (hostOps0 (F := F)) W (Proc.devRef .tc main_v3) = Cert.Spec.srcIdx (F := F) (W (Proc.devRef .tc main_arg1)) := by
  after_results; rfl
theorem ops0_v6 : after (hostOps0 (F := F)) W (Proc.devRef .tc main_v6) = Cert.Spec.dstIdx (F := F) (W (Proc.devRef .tc main_arg1)) := by
  after_results; rfl
theorem ops0_v12 : after (hostOps0 (F := F)) W (Proc.devRef .tc main_v12)
    = cmpf .ogt (Cert.Spec.degree (F := F) (Cert.Spec.dstIdx (F := F) (W (Proc.devRef .tc main_arg1)))) (broadcastInDim S100000 ![] bcast_S_S100000 (constant S_ .f32 0x00000000#32)) := by
  after_results; rfl
theorem ops0_v15 : after (hostOps0 (F := F)) W (Proc.devRef .tc main_v15)
    = Host.rsqrt (maximumf (Cert.Spec.degree (F := F) (Cert.Spec.dstIdx (F := F) (W (Proc.devRef .tc main_arg1)))) (broadcastInDim S100000 ![] bcast_S_S100000 (constant S_ .f32 0x3F800000#32))) := by
  after_results; rfl
theorem ops0_cst3 : after (hostOps0 (F := F)) W (Proc.devRef .tc main_cst_3) = constant S_ .f32 0x00000000#32 := by
  after_results
theorem ops0_main_arg0 : after (hostOps0 (F := F)) W (Proc.devRef .tc main_arg0) = W (Proc.devRef .tc main_arg0) := by after_results
theorem ops0_main_arg2 : after (hostOps0 (F := F)) W (Proc.devRef .tc main_arg2) = W (Proc.devRef .tc main_arg2) := by after_results
theorem ops0_main_arg3 : after (hostOps0 (F := F)) W (Proc.devRef .tc main_arg3) = W (Proc.devRef .tc main_arg3) := by after_results
theorem ops0_main_arg4 : after (hostOps0 (F := F)) W (Proc.devRef .tc main_arg4) = W (Proc.devRef .tc main_arg4) := by after_results
theorem ops0_main_arg5 : after (hostOps0 (F := F)) W (Proc.devRef .tc main_arg5) = W (Proc.devRef .tc main_arg5) := by after_results

/-! ## Stretch 0_1: the select -/

theorem ops01_v16 : after (hostOps0_1 (F := F)) W (Proc.devRef .tc main_v16)
    = select (W (Proc.devRef .tc main_v12)) (W (Proc.devRef .tc main_v15)) (broadcastInDim S100000 ![] bcast_S_S100000 (W (Proc.devRef .tc main_cst_3))) := by
  after_results; rfl
theorem ops01_main_v3 : after (hostOps0_1 (F := F)) W (Proc.devRef .tc main_v3) = W (Proc.devRef .tc main_v3) := by after_results
theorem ops01_main_v6 : after (hostOps0_1 (F := F)) W (Proc.devRef .tc main_v6) = W (Proc.devRef .tc main_v6) := by after_results
theorem ops01_main_arg0 : after (hostOps0_1 (F := F)) W (Proc.devRef .tc main_arg0) = W (Proc.devRef .tc main_arg0) := by after_results
theorem ops01_main_arg2 : after (hostOps0_1 (F := F)) W (Proc.devRef .tc main_arg2) = W (Proc.devRef .tc main_arg2) := by after_results
theorem ops01_main_arg3 : after (hostOps0_1 (F := F)) W (Proc.devRef .tc main_arg3) = W (Proc.devRef .tc main_arg3) := by after_results
theorem ops01_main_arg4 : after (hostOps0_1 (F := F)) W (Proc.devRef .tc main_arg4) = W (Proc.devRef .tc main_arg4) := by after_results
theorem ops01_main_arg5 : after (hostOps0_1 (F := F)) W (Proc.devRef .tc main_arg5) = W (Proc.devRef .tc main_arg5) := by after_results

/-! ## Stretch 0_2: the edge weights -/

set_option maxHeartbeats 4000000 in
theorem ops02_v31 : after (hostOps0_2 (F := F)) W (Proc.devRef .tc main_v31)
    = mulf (Host.gather gather_S100000_S1700000x1_S1700000_n_0_n_n_0_1_1 (W (Proc.devRef .tc main_v16)) (Cert.Spec.startIdx (F := F) (W (Proc.devRef .tc main_v3))))
        (Host.gather gather_S100000_S1700000x1_S1700000_n_0_n_n_0_1_1 (W (Proc.devRef .tc main_v16)) (Cert.Spec.startIdx (F := F) (W (Proc.devRef .tc main_v6)))) := by
  after_results; rfl
theorem ops02_main_v3 : after (hostOps0_2 (F := F)) W (Proc.devRef .tc main_v3) = W (Proc.devRef .tc main_v3) := by after_results
theorem ops02_main_v6 : after (hostOps0_2 (F := F)) W (Proc.devRef .tc main_v6) = W (Proc.devRef .tc main_v6) := by after_results
theorem ops02_main_arg0 : after (hostOps0_2 (F := F)) W (Proc.devRef .tc main_arg0) = W (Proc.devRef .tc main_arg0) := by after_results
theorem ops02_main_arg2 : after (hostOps0_2 (F := F)) W (Proc.devRef .tc main_arg2) = W (Proc.devRef .tc main_arg2) := by after_results
theorem ops02_main_arg3 : after (hostOps0_2 (F := F)) W (Proc.devRef .tc main_arg3) = W (Proc.devRef .tc main_arg3) := by after_results
theorem ops02_main_arg4 : after (hostOps0_2 (F := F)) W (Proc.devRef .tc main_arg4) = W (Proc.devRef .tc main_arg4) := by after_results
theorem ops02_main_arg5 : after (hostOps0_2 (F := F)) W (Proc.devRef .tc main_arg5) = W (Proc.devRef .tc main_arg5) := by after_results

/-! ## Stretch 1: the weighted neighbourhood sum of the 64-wide rows; the first bias as a row -/

set_option maxHeartbeats 4000000 in
theorem ops1_v45 : after (hostOps1 (F := F)) W (Proc.devRef .tc main_v45)
    = Cert.Spec.aggregate64 (F := F) (W (Proc.devRef .tc main_v32)) (W (Proc.devRef .tc main_v3)) (W (Proc.devRef .tc main_v6)) (W (Proc.devRef .tc main_v31)) := by
  after_results; rfl
theorem ops1_v46 : after (hostOps1 (F := F)) W (Proc.devRef .tc main_v46) = shapeCast _ (W (Proc.devRef .tc main_arg3)) shapeCasts_S64_S1x64 := by
  after_results; rfl
theorem ops1_main_v3 : after (hostOps1 (F := F)) W (Proc.devRef .tc main_v3) = W (Proc.devRef .tc main_v3) := by after_results
theorem ops1_main_v6 : after (hostOps1 (F := F)) W (Proc.devRef .tc main_v6) = W (Proc.devRef .tc main_v6) := by after_results
theorem ops1_main_v31 : after (hostOps1 (F := F)) W (Proc.devRef .tc main_v31) = W (Proc.devRef .tc main_v31) := by after_results
theorem ops1_main_arg4 : after (hostOps1 (F := F)) W (Proc.devRef .tc main_arg4) = W (Proc.devRef .tc main_arg4) := by after_results
theorem ops1_main_arg5 : after (hostOps1 (F := F)) W (Proc.devRef .tc main_arg5) = W (Proc.devRef .tc main_arg5) := by after_results

/-! ## Stretch 2: the weighted neighbourhood sum of the 40-wide rows; the second bias as a row -/

set_option maxHeartbeats 4000000 in
theorem ops2_v60 : after (hostOps2 (F := F)) W (Proc.devRef .tc main_v60)
    = Cert.Spec.aggregate40 (F := F) (W (Proc.devRef .tc main_v47)) (W (Proc.devRef .tc main_v3)) (W (Proc.devRef .tc main_v6)) (W (Proc.devRef .tc main_v31)) := by
  after_results; rfl
theorem ops2_v61 : after (hostOps2 (F := F)) W (Proc.devRef .tc main_v61) = shapeCast _ (W (Proc.devRef .tc main_arg5)) shapeCasts_S40_S1x40 := by
  after_results; rfl

end Cert.KernelIdeal.Stages

end
-- ==== Proof.SpecRead.lean ====
/-
  The specification's two matrix products read at an entry, at the ideal values: entry (r, c) of x · w is the plain sum
  Σ_k x(r, k) · w(k, c) over the contracted coordinate, and the hidden activation at (r, k) is max(a(r, k) + b(0, k), 0).
  (The host's dot_general at an index is the sum over the record's contraction index; with one contracted axis that
  index is a single coordinate, and the record's operand-index maps send (r, c), k to (r, k) and (k, c).)
-/
import proofs.«138161_j62259845923389_1_alg».proof.Proof.Spec
import Idealize.ShloMosaic.Lib.Pipeline.Value
import Idealize.ShloMosaic.Lib.ValueIdx
import Idealize.ShloMosaic.PureOps.Ideal.Laws

noncomputable section

namespace Cert.Spec

open Idealize.ShloMosaic Idealize.ShloMosaic.ValueIdx Cert.ReferenceIdeal Cert.ReferenceIdeal.Facts₀ Cert.ReferenceIdeal.Facts

theorem lhs0_t1 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs1_t1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem rhs0_t1 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem rhs1_t1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The operand indices of the product at output entry (r, c) and contraction position k are (r, k) and (k, c). -/
theorem lidx_t1 (r : Fin 100000) (c : Fin 64) (k : Fin 128) :
    dot_S100000x128_S128x64_S100000x64_1_0_0_1_n_n.lhsIdx (ix2 r c) ((contrEquiv1 dot_S100000x128_S128x64_S100000x64_1_0_0_1_n_n 128 rfl rfl).symm k) = ix2 r k := funext fun a => Fin.ext (by
  have hk := contrEquiv1_symm_val dot_S100000x128_S128x64_S100000x64_1_0_0_1_n_n 128 rfl rfl k
  match a with
  | ⟨0, _⟩ => exact lhs0_t1 _ _
  | ⟨1, _⟩ => exact (lhs1_t1 _ _).trans hk)
theorem ridx_t1 (r : Fin 100000) (c : Fin 64) (k : Fin 128) :
    dot_S100000x128_S128x64_S100000x64_1_0_0_1_n_n.rhsIdx (ix2 r c) ((contrEquiv1 dot_S100000x128_S128x64_S100000x64_1_0_0_1_n_n 128 rfl rfl).symm k) = ix2 k c := funext fun a => Fin.ext (by
  have hk := contrEquiv1_symm_val dot_S100000x128_S128x64_S100000x64_1_0_0_1_n_n 128 rfl rfl k
  match a with
  | ⟨0, _⟩ => exact (rhs0_t1 _ _).trans hk
  | ⟨1, _⟩ => exact rhs1_t1 _ _)

/-- Entry (r, c) of the first feature transform is Σ_k x(r, k) · w(k, c). -/
theorem transform1_apply (x : (⟨S100000x128, .f32⟩ : BufTy).Contents (Elt Ideal)) (w : (⟨S128x64, .f32⟩ : BufTy).Contents (Elt Ideal))
    (r : Fin 100000) (c : Fin 64) :
    transform1 (F := Ideal) x w (ix2 r c) = ∑ k : Fin 128, x (ix2 r k) * w (ix2 k c) := by
  unfold transform1
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  rw [lidx_t1, ridx_t1]

theorem lhs0_t2 (i : S100000x40.Idx) (q : dot_S100000x64_S64x40_S100000x40_1_0_0_1_n_n.contr.Idx) : (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
  rfl
theorem lhs1_t2 (i : S100000x40.Idx) (q : dot_S100000x64_S64x40_S100000x40_1_0_0_1_n_n.contr.Idx) : (dot_S100000x64_S64x40_S100000x40_1_0_0_1_n_n.lhsIdx i q 1).val = (q ⟨0, by decide⟩).val :=
  dot_S100000x64_S64x40_S100000x40_1_0_0_1_n_n.lhsIdx_val_of_single rfl i q
theorem rhs0_t2 (i : S100000x40.Idx) (q : dot_S100000x64_S64x40_S100000x40_1_0_0_1_n_n.contr.Idx) : (dot_S100000x64_S64x40_S100000x40_1_0_0_1_n_n.rhsIdx i q 0).val = (q ⟨0, by decide⟩).val :=
  dot_S100000x64_S64x40_S100000x40_1_0_0_1_n_n.rhsIdx_val_of_single rfl i q
theorem rhs1_t2 (i : S100000x40.Idx) (q : dot_S100000x64_S64x40_S100000x40_1_0_0_1_n_n.contr.Idx) : (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
  rfl

/-- The operand indices of the product at output entry (r, c) and contraction position k are (r, k) and (k, c). -/
theorem lidx_t2 (r : Fin 100000) (c : Fin 40) (k : Fin 64) :
    dot_S100000x64_S64x40_S100000x40_1_0_0_1_n_n.lhsIdx (ix2 r c) ((contrEquiv1 dot_S100000x64_S64x40_S100000x40_1_0_0_1_n_n 64 rfl rfl).symm k) = ix2 r k := funext fun a => Fin.ext (by
  have hk := contrEquiv1_symm_val dot_S100000x64_S64x40_S100000x40_1_0_0_1_n_n 64 rfl rfl k
  match a with
  | ⟨0, _⟩ => exact lhs0_t2 _ _
  | ⟨1, _⟩ => exact (lhs1_t2 _ _).trans hk)
theorem ridx_t2 (r : Fin 100000) (c : Fin 40) (k : Fin 64) :
    dot_S100000x64_S64x40_S100000x40_1_0_0_1_n_n.rhsIdx (ix2 r c) ((contrEquiv1 dot_S100000x64_S64x40_S100000x40_1_0_0_1_n_n 64 rfl rfl).symm k) = ix2 k c := funext fun a => Fin.ext (by
  have hk := contrEquiv1_symm_val dot_S100000x64_S64x40_S100000x40_1_0_0_1_n_n 64 rfl rfl k
  match a with
  | ⟨0, _⟩ => exact (rhs0_t2 _ _).trans hk
  | ⟨1, _⟩ => exact rhs1_t2 _ _)

/-- The hidden activation at (r, k): max(a(r, k) + b(0, k), 0). -/
theorem hidden_apply (a : (⟨S100000x64, .f32⟩ : BufTy).Contents (Elt Ideal)) (brow : (⟨S1x64, .f32⟩ : BufTy).Contents (Elt Ideal))
    (r : Fin 100000) (k : Fin 64) :
    hidden (F := Ideal) a brow (ix2 r k) = max (a (ix2 r k) + brow (ix2 0 k)) (Ideal.ofBits .f32 0x00000000#32) := by
  unfold hidden
  rw [maximumf_apply, addf_apply]
  refine congrArg₂ max (congrArg (a (ix2 r k) + ·) ?_) ?_
  · refine (broadcastInDim_apply ![0, 1] bcast_S1x64_S100000x64_0_1 brow (ix2 r k) (ix2 0 k) (fun a => ?_))
    match a with
    | ⟨0, _⟩ => rfl
    | ⟨1, _⟩ => rfl
  · rfl

/-- Entry (r, c) of the second feature transform is Σ_k max(a(r, k) + b(0, k), 0) · w(k, c). -/
theorem transform2_apply (a : (⟨S100000x64, .f32⟩ : BufTy).Contents (Elt Ideal)) (brow : (⟨S1x64, .f32⟩ : BufTy).Contents (Elt Ideal))
    (w : (⟨S64x40, .f32⟩ : BufTy).Contents (Elt Ideal)) (r : Fin 100000) (c : Fin 40) :
    transform2 (F := Ideal) a brow w (ix2 r c)
      = ∑ k : Fin 64, max (a (ix2 r k) + brow (ix2 0 k)) (Ideal.ofBits .f32 0x00000000#32) * w (ix2 k c) := by
  unfold transform2
  simp only [Host.dotGeneral]
  rw [Ideal.dotGeneral_apply, ← Equiv.sum_comp (contrEquiv1 dot_S100000x64_S64x40_S100000x40_1_0_0_1_n_n 64 rfl rfl).symm]
  refine Finset.sum_congr rfl fun k _ => ?_
  rw [lidx_t2, ridx_t2, hidden_apply]

end Cert.Spec

end
-- ==== Proof.Region0.lean ====
/-
  The first region of the kernel as one whole-array function. Grid point t takes rows 10000·t … 10000·t + 9999 of x
  (a [10000, 128] block), all of W1, and writes the block's product with W1 — computed into a zero accumulator, the
  narrowing of both operands to bf16 being the identity on extended reals — to the same rows of the result. Entry (p, c)
  of a block's product is Σ_k x(10000·t + p, k) · W1(k, c): the sum that entry (10000·t + p, c) of the whole product is.
  The ten blocks tile the [100000, 64] array, so after the region it holds the whole product x · W1.
-/
import proofs.«138161_j62259845923389_1_alg».proof.Proof.SpecRead
import proofs.«138161_j62259845923389_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-! ## The block product at an entry -/

theorem lhs0_k0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1_k0 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhs0_k0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhs1_k0 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The operand indices of the product at output entry (r, c) and contraction position k are (r, k) and (k, c). -/
theorem lidx_k0 (r : Fin 10000) (c : Fin 64) (k : Fin 128) :
    dot_S10000x128_S128x64_S10000x64_1_0_0_1_n_n.lhsIdx (ix2 r c) ((contrEquiv1 dot_S10000x128_S128x64_S10000x64_1_0_0_1_n_n 128 rfl rfl).symm k) = ix2 r k := funext fun a => Fin.ext (by
  have hk := contrEquiv1_symm_val dot_S10000x128_S128x64_S10000x64_1_0_0_1_n_n 128 rfl rfl k
  match a with
  | ⟨0, _⟩ => exact lhs0_k0 _ _
  | ⟨1, _⟩ => exact (lhs1_k0 _ _).trans hk)
theorem ridx_k0 (r : Fin 10000) (c : Fin 64) (k : Fin 128) :
    dot_S10000x128_S128x64_S10000x64_1_0_0_1_n_n.rhsIdx (ix2 r c) ((contrEquiv1 dot_S10000x128_S128x64_S10000x64_1_0_0_1_n_n 128 rfl rfl).symm k) = ix2 k c := funext fun a => Fin.ext (by
  have hk := contrEquiv1_symm_val dot_S10000x128_S128x64_S10000x64_1_0_0_1_n_n 128 rfl rfl k
  match a with
  | ⟨0, _⟩ => exact (rhs0_k0 _ _).trans hk
  | ⟨1, _⟩ => exact rhs1_k0 _ _)

/-- Entry (p, c) of the body's stored value is Σ_k x0(p, k) · x1(k, c). -/
theorem pay_apply (x0 : Vec Ideal S10000x128 .f32) (x1 : Vec Ideal S128x64 .f32) (p : Fin 10000) (c : Fin 64) :
    k0_pay1 (F := Ideal) x0 x1 (ix2 p c) = ∑ k : Fin 128, x0 (ix2 p k) * x1 (ix2 k c) := by
  unfold k0_pay1
  simp only [matmul]
  refine (Ideal.matmul_constant_zero_apply dot_S10000x128_S128x64_S10000x64_1_0_0_1_n_n none _ _ (ix2 p c)).trans ?_
  rw [← Equiv.sum_comp (contrEquiv1 dot_S10000x128_S128x64_S10000x64_1_0_0_1_n_n 128 rfl rfl).symm]
  refine Finset.sum_congr rfl fun k _ => ?_
  rw [lidx_k0, ridx_k0]
  rfl

/-! ## The windows' blocks -/

/-- The printed index maps over the grid: windows 0 and 2 are at block (t, 0), window 1 at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 10 := lt_of_lt_of_eq t.isLt N_0

/-- Row p of point t's block is row 10000·t + p of the array. -/
def rowAt (t : Fin cfg0.N) (p : Fin 10000) : Fin 100000 := ⟨10000 * t.val + p.val, by have := t_lt t; have := p.isLt; omega⟩

theorem emb2 (t : Fin cfg0.N) (p : Fin 10000) (c : Fin 64) :
    ((cfg0.win 2).blk t).view.emb (ix2 p c) = ix2 (rowAt t p) c := by
  obtain ⟨e0, e1, e2, e3, e4, e5⟩ := idx_facts t
  funext a; apply Fin.ext
  match a with
  | ⟨0, _⟩ => show win0_2.index t (0 : Fin 2) * 10000 + 1 * p.val = 10000 * t.val + p.val; omega
  | ⟨1, _⟩ => show win0_2.index t (1 : Fin 2) * 64 + 1 * c.val = c.val; omega

theorem emb0 (t : Fin cfg0.N) (p : Fin 10000) (k : Fin 128) :
    ((cfg0.win 0).blk t).view.emb (ix2 p k) = ix2 (rowAt t p) k := by
  obtain ⟨e0, e1, e2, e3, e4, e5⟩ := idx_facts t
  funext a; apply Fin.ext
  match a with
  | ⟨0, _⟩ => show win0_0.index t (0 : Fin 2) * 10000 + 1 * p.val = 10000 * t.val + p.val; omega
  | ⟨1, _⟩ => show win0_0.index t (1 : Fin 2) * 128 + 1 * k.val = k.val; omega

theorem emb1 (t : Fin cfg0.N) (k : Fin 128) (c : Fin 64) :
    ((cfg0.win 1).blk t).view.emb (ix2 k c) = ix2 k c := by
  obtain ⟨e0, e1, e2, e3, e4, e5⟩ := idx_facts t
  funext a; apply Fin.ext
  match a with
  | ⟨0, _⟩ => show win0_1.index t (0 : Fin 2) * 128 + 1 * k.val = k.val; omega
  | ⟨1, _⟩ => show win0_1.index t (1 : Fin 2) * 64 + 1 * c.val = c.val; omega

variable (V : (c : Dev nD) → (b : Ref sig .tc) → Buf (Elt Ideal) ((c : Thread nD τ).loc b))

theorem blk0_apply (c : Dev nD) (t : Fin cfg0.N) (p : Fin 10000) (k : Fin 128) :
    iblk0 V c 0 t (ix2 p k) = V c main_arg0 (ix2 (rowAt t p) k) := by
  show V c main_arg0 (((cfg0.win 0).blk t).view.emb (ix2 p k)) = _
  rw [emb0]

theorem blk1_apply (c : Dev nD) (t : Fin cfg0.N) (k : Fin 128) (q : Fin 64) :
    iblk0 V c 1 t (ix2 k q) = V c main_arg2 (ix2 k q) := by
  show V c main_arg2 (((cfg0.win 1).blk t).view.emb (ix2 k q)) = _
  rw [emb1]

/-! ## What a point writes back, and the whole array -/

/-- What point t writes back is block t of the whole product. -/
theorem flushed_eq (c : Dev nD) (t : Fin cfg0.N) :
    (dat0 (F := Ideal) V c).flushed 2 t
      = ((cfg0.win 2).blk t).view.read (Elt Ideal) (Cert.Spec.transform1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  funext j
  obtain ⟨p, q, rfl⟩ : ∃ (p : Fin 10000) (q : Fin 64), j = ix2 p q := ⟨j 0, j 1, eq_ix2 j⟩
  refine (pay_apply _ _ p q).trans ?_
  show _ = Cert.Spec.transform1 (F := Ideal) (V c main_arg0) (V c main_arg2) (((cfg0.win 2).blk t).view.emb (ix2 p q))
  rw [emb2, Cert.Spec.transform1_apply]
  refine Finset.sum_congr rfl fun k _ => ?_
  rw [blk0_apply, blk1_apply]

theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Every entry of the array is in some point's block: row r is in block r / 10000. -/
theorem cover (i : S100000x64.Idx) : ∃ t : Fin cfg0.N, (cfg0.win 2).flush t = true ∧ i ∈ ((cfg0.win 2).blk t).view.set := by
  have hi0 : (i 0).val < 100000 := idx2_lt0 i
  have hi1 : (i 1).val < 64 := idx2_lt1 i
  let t : Fin cfg0.N := ⟨(i 0).val / 10000, lt_of_lt_of_eq (by omega : (i 0).val / 10000 < 10) N_0.symm⟩
  obtain ⟨e0, e1, e2, e3, e4, e5⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region its output array holds the whole product of the two input arrays as the region found them. -/
theorem value (c : Dev nD) :
    (dat0 (F := Ideal) V c).arrAt 2 cfg0.N = Cert.Spec.transform1 (F := Ideal) (V c main_arg0) (V c main_arg2) :=
  (dat0 (F := Ideal) V c).arrAt_eq_of_cover 2 _ (fun t _ => flushed_eq V c t) cover

end Cert.KernelIdeal.Region0

end
-- ==== Proof.Region1.lean ====
/-
  The second region of the kernel as one whole-array function. Grid point t takes rows 10000·t … 10000·t + 9999 of the
  aggregated features a (a [10000, 64] block), the bias as a one-row matrix b, all of W2, and writes
  max(block + b, 0) · W2 — the row broadcast down the block, the product into a zero accumulator, the narrowing of
  both operands to bf16 the identity on extended reals — to the same rows of the result. Entry (p, c) of that is
  Σ_k max(a(10000·t + p, k) + b(0, k), 0) · W2(k, c): the sum that entry (10000·t + p, c) of max(a + b, 0) · W2 over
  the whole array is. The ten blocks tile the [100000, 40] array.
-/
import proofs.«138161_j62259845923389_1_alg».proof.Proof.SpecRead
import proofs.«138161_j62259845923389_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-! ## The block product at an entry -/

theorem lhs0_k1 (i : S10000x40.Idx) (q : dot_S10000x64_S64x40_S10000x40_1_0_0_1_n_n.contr.Idx) : (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem lhs1_k1 (i : S10000x40.Idx) (q : dot_S10000x64_S64x40_S10000x40_1_0_0_1_n_n.contr.Idx) : (dot_S10000x64_S64x40_S10000x40_1_0_0_1_n_n.lhsIdx i q 1).val = (q ⟨0, by decide⟩).val :=
  dot_S10000x64_S64x40_S10000x40_1_0_0_1_n_n.lhsIdx_val_of_single rfl i q
theorem rhs0_k1 (i : S10000x40.Idx) (q : dot_S10000x64_S64x40_S10000x40_1_0_0_1_n_n.contr.Idx) : (dot_S10000x64_S64x40_S10000x40_1_0_0_1_n_n.rhsIdx i q 0).val = (q ⟨0, by decide⟩).val :=
  dot_S10000x64_S64x40_S10000x40_1_0_0_1_n_n.rhsIdx_val_of_single rfl i q
theorem rhs1_k1 (i : S10000x40.Idx) (q : dot_S10000x64_S64x40_S10000x40_1_0_0_1_n_n.contr.Idx) : (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The operand indices of the product at output entry (r, c) and contraction position k are (r, k) and (k, c). -/
theorem lidx_k1 (r : Fin 10000) (c : Fin 40) (k : Fin 64) :
    dot_S10000x64_S64x40_S10000x40_1_0_0_1_n_n.lhsIdx (ix2 r c) ((contrEquiv1 dot_S10000x64_S64x40_S10000x40_1_0_0_1_n_n 64 rfl rfl).symm k) = ix2 r k := funext fun a => Fin.ext (by
  have hk := contrEquiv1_symm_val dot_S10000x64_S64x40_S10000x40_1_0_0_1_n_n 64 rfl rfl k
  match a with
  | ⟨0, _⟩ => exact lhs0_k1 _ _
  | ⟨1, _⟩ => exact (lhs1_k1 _ _).trans hk)
theorem ridx_k1 (r : Fin 10000) (c : Fin 40) (k : Fin 64) :
    dot_S10000x64_S64x40_S10000x40_1_0_0_1_n_n.rhsIdx (ix2 r c) ((contrEquiv1 dot_S10000x64_S64x40_S10000x40_1_0_0_1_n_n 64 rfl rfl).symm k) = ix2 k c := funext fun a => Fin.ext (by
  have hk := contrEquiv1_symm_val dot_S10000x64_S64x40_S10000x40_1_0_0_1_n_n 64 rfl rfl k
  match a with
  | ⟨0, _⟩ => exact (rhs0_k1 _ _).trans hk
  | ⟨1, _⟩ => exact rhs1_k1 _ _)

/-- The left operand of the body's product at (p, k): max(x0(p, k) + x1(0, k), 0). -/
theorem act_apply (x0 : Vec Ideal S10000x64 .f32) (x1 : Vec Ideal S1x64 .f32) (p : Fin 10000) (k : Fin 64) :
    (maximumf (addf (shapeCast S10000x64 x0 shapeCasts_S10000x64_S10000x64) (broadcastTo S10000x64 (shapeCast S1x64 x1 shapeCasts_S1x64_S1x64) broadcasts_S1x64_S10000x64))
        (broadcast S10000x64 (Scalar.ofBits (F := Ideal) .f32 0x00000000#32)) : FVec Ideal S10000x64 .f32) (ix2 p k)
      = max (x0 (ix2 p k) + x1 (ix2 0 k)) (Ideal.ofBits .f32 0x00000000#32) := by
  rw [maximumf_apply, addf_apply, shapeCast_self, shapeCast_self]
  refine congrArg₂ max (congrArg (x0 (ix2 p k) + ·) ?_) rfl
  exact broadcastTo_1b_ab_apply x1 broadcasts_S1x64_S10000x64 p k

/-- Entry (p, c) of the body's stored value is Σ_k max(x0(p, k) + x1(0, k), 0) · x2(k, c). -/
theorem pay_apply (x0 : Vec Ideal S10000x64 .f32) (x1 : Vec Ideal S1x64 .f32) (x2 : Vec Ideal S64x40 .f32) (p : Fin 10000) (c : Fin 40) :
    k1_pay1 (F := Ideal) x0 x1 x2 (ix2 p c)
      = ∑ k : Fin 64, max (x0 (ix2 p k) + x1 (ix2 0 k)) (Ideal.ofBits .f32 0x00000000#32) * x2 (ix2 k c) := by
  unfold k1_pay1
  simp only [matmul]
  refine (Ideal.matmul_constant_zero_apply dot_S10000x64_S64x40_S10000x40_1_0_0_1_n_n none _ _ (ix2 p c)).trans ?_
  rw [← Equiv.sum_comp (contrEquiv1 dot_S10000x64_S64x40_S10000x40_1_0_0_1_n_n 64 rfl rfl).symm]
  refine Finset.sum_congr rfl fun k _ => ?_
  rw [lidx_k1, ridx_k1]
  exact congrArg₂ (· * ·) (act_apply x0 x1 p k) rfl

/-! ## The windows' blocks -/

/-- The printed index maps over the grid: windows 0 and 3 are at block (t, 0), windows 1 and 2 at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 10 := lt_of_lt_of_eq t.isLt N_1

/-- Row p of point t's block is row 10000·t + p of the array. -/
def rowAt (t : Fin cfg1.N) (p : Fin 10000) : Fin 100000 := ⟨10000 * t.val + p.val, by have := t_lt t; have := p.isLt; omega⟩

theorem emb3 (t : Fin cfg1.N) (p : Fin 10000) (c : Fin 40) :
    ((cfg1.win 3).blk t).view.emb (ix2 p c) = ix2 (rowAt t p) c := by
  obtain ⟨e0, e1, e2, e3, e4, e5, e6, e7⟩ := idx_facts t
  funext a; apply Fin.ext
  match a with
  | ⟨0, _⟩ => show win1_3.index t (0 : Fin 2) * 10000 + 1 * p.val = 10000 * t.val + p.val; omega
  | ⟨1, _⟩ => show win1_3.index t (1 : Fin 2) * 40 + 1 * c.val = c.val; omega

theorem emb0 (t : Fin cfg1.N) (p : Fin 10000) (k : Fin 64) :
    ((cfg1.win 0).blk t).view.emb (ix2 p k) = ix2 (rowAt t p) k := by
  obtain ⟨e0, e1, e2, e3, e4, e5, e6, e7⟩ := idx_facts t
  funext a; apply Fin.ext
  match a with
  | ⟨0, _⟩ => show win1_0.index t (0 : Fin 2) * 10000 + 1 * p.val = 10000 * t.val + p.val; omega
  | ⟨1, _⟩ => show win1_0.index t (1 : Fin 2) * 64 + 1 * k.val = k.val; omega

theorem emb1 (t : Fin cfg1.N) (z : Fin 1) (k : Fin 64) :
    ((cfg1.win 1).blk t).view.emb (ix2 z k) = ix2 z k := by
  obtain ⟨e0, e1, e2, e3, e4, e5, e6, e7⟩ := idx_facts t
  funext a; apply Fin.ext
  match a with
  | ⟨0, _⟩ => show win1_1.index t (0 : Fin 2) * 1 + 1 * z.val = z.val; omega
  | ⟨1, _⟩ => show win1_1.index t (1 : Fin 2) * 64 + 1 * k.val = k.val; omega

theorem emb2 (t : Fin cfg1.N) (k : Fin 64) (c : Fin 40) :
    ((cfg1.win 2).blk t).view.emb (ix2 k c) = ix2 k c := by
  obtain ⟨e0, e1, e2, e3, e4, e5, e6, e7⟩ := idx_facts t
  funext a; apply Fin.ext
  match a with
  | ⟨0, _⟩ => show win1_2.index t (0 : Fin 2) * 64 + 1 * k.val = k.val; omega
  | ⟨1, _⟩ => show win1_2.index t (1 : Fin 2) * 40 + 1 * c.val = c.val; omega

variable (V : (c : Dev nD) → (b : Ref sig .tc) → Buf (Elt Ideal) ((c : Thread nD τ).loc b))

theorem blk0_apply (c : Dev nD) (t : Fin cfg1.N) (p : Fin 10000) (k : Fin 64) :
    iblk1 V c 0 t (ix2 p k) = V c main_v45 (ix2 (rowAt t p) k) := by
  show V c main_v45 (((cfg1.win 0).blk t).view.emb (ix2 p k)) = _
  rw [emb0]

theorem blk1_apply (c : Dev nD) (t : Fin cfg1.N) (z : Fin 1) (k : Fin 64) :
    iblk1 V c 1 t (ix2 z k) = V c main_v46 (ix2 z k) := by
  show V c main_v46 (((cfg1.win 1).blk t).view.emb (ix2 z k)) = _
  rw [emb1]

theorem blk2_apply (c : Dev nD) (t : Fin cfg1.N) (k : Fin 64) (q : Fin 40) :
    iblk1 V c 2 t (ix2 k q) = V c main_arg4 (ix2 k q) := by
  show V c main_arg4 (((cfg1.win 2).blk t).view.emb (ix2 k q)) = _
  rw [emb2]

/-! ## What a point writes back, and the whole array -/

/-- What point t writes back is block t of max(a + b, 0) · W2 over the whole arrays. -/
theorem flushed_eq (c : Dev nD) (t : Fin cfg1.N) :
    (dat1 (F := Ideal) V c).flushed 3 t
      = ((cfg1.win 3).blk t).view.read (Elt Ideal) (Cert.Spec.transform2 (F := Ideal) (V c main_v45) (V c main_v46) (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x40) hz]
  funext j
  obtain ⟨p, q, rfl⟩ : ∃ (p : Fin 10000) (q : Fin 40), j = ix2 p q := ⟨j 0, j 1, eq_ix2 j⟩
  refine (pay_apply _ _ _ p q).trans ?_
  show _ = Cert.Spec.transform2 (F := Ideal) (V c main_v45) (V c main_v46) (V c main_arg4) (((cfg1.win 3).blk t).view.emb (ix2 p q))
  rw [emb3, Cert.Spec.transform2_apply]
  refine Finset.sum_congr rfl fun k _ => ?_
  rw [blk0_apply, blk1_apply, blk2_apply]

theorem mem_blk (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v47).slice (win1_3.rect t)).set ↔ _
  rw [View.set_slice_whole, Rect.mem_set_unit]
  exact Iff.rfl

/-- Every entry of the array is in some point's block: row r is in block r / 10000. -/
theorem cover (i : S100000x40.Idx) : ∃ t : Fin cfg1.N, (cfg1.win 3).flush t = true ∧ i ∈ ((cfg1.win 3).blk t).view.set := by
  have hi0 : (i 0).val < 100000 := idx2_lt0 i
  have hi1 : (i 1).val < 40 := idx2_lt1 i
  let t : Fin cfg1.N := ⟨(i 0).val / 10000, lt_of_lt_of_eq (by omega : (i 0).val / 10000 < 10) N_1.symm⟩
  obtain ⟨e0, e1, e2, e3, e4, e5, e6, e7⟩ := idx_facts t
  have ht : t.val = (i 0).val / 10000 := rfl
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 40 ≤ (i 1).val ∧ (i 1).val < win1_3.index t (1 : Fin 2) * 40 + 40; omega

/-- After the region its output array holds max(a + b, 0) · W2 of the three input arrays as the region found them. -/
theorem value (c : Dev nD) :
    (dat1 (F := Ideal) V c).arrAt 3 cfg1.N = Cert.Spec.transform2 (F := Ideal) (V c main_v45) (V c main_v46) (V c main_arg4) :=
  (dat1 (F := Ideal) V c).arrAt_eq_of_cover 3 _ (fun t _ => flushed_eq V c t) cover

end Cert.KernelIdeal.Region1

end
-- ==== Proof.KernelValue.lean ====
/-
  The kernel's returned array as the specification's network of the six argument arrays. The generated frame names
  the TensorCore's buffer contents at every boundary between a stretch of host operations and a region (`W0 … W8`);
  this module walks them: after the three opening stretches the index vectors and edge weights are the specification's
  (`W3`); region 0 leaves x · W1; stretch 1 its weighted neighbourhood sum and the first bias as a row; region 1 leaves
  max(· + b1, 0) · W2; stretch 2 its weighted neighbourhood sum and the second bias as a row; region 2 leaves the
  log-softmax of (· + b2). A bias reshaped [n] → [1, n] (the kernel) is the bias broadcast into a one-row matrix (the
  specification): both read b(k) at (0, k).
-/
import proofs.«138161_j62259845923389_1_alg».proof.Proof.KernelStages
import proofs.«138161_j62259845923389_1_alg».proof.Proof.Region0
import proofs.«138161_j62259845923389_1_alg».proof.Proof.Region1
import proofs.«138161_j62259845923389_1_alg».proof.Proof.Gen.KernelIdeal.Frame
import Idealize.ShloMosaic.Lib.Pipeline.Value
import Idealize.ShloMosaic.Lib.ValueIdx

set_option maxRecDepth 16384

noncomputable section

namespace Cert.KernelIdeal.WholeValue

open Cert.KernelIdeal Cert.KernelIdeal.Gen Idealize.ShloMosaic Idealize.ShloMosaic.TcCoe Idealize.SL.Sem Idealize.ShloMosaic.StableHlo
open Idealize.ShloMosaic.ValueIdx Cert.KernelIdeal.Stages

/-! ## A reshaped bias is the broadcast one-row matrix -/

theorem reshape_row {α : Type} {n : Nat} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) (hn : n ≠ 1) :
    shapeCast ⟨2, ![1, n]⟩ b h = broadcastInDim ⟨2, ![1, n]⟩ ![1] h' b := by
  funext j
  refine (shapeCast_addUnit_apply ![n] b h j).trans (Eq.symm ?_)
  refine broadcastInDim_apply ![1] h' b j (fun a => j a.succ) (fun a => ?_)
  match a with
  | ⟨0, _⟩ =>
    show (j 1).val = if n = 1 then 0 else (j 1).val
    rw [if_neg hn]

variable (m : (ℓ : Loc nD τ sig) → Buf (Elt Ideal) ℓ) (ρ : Dev nD → PrngReg) (c : Dev nD)

/-! ## After the opening stretches (`W3`) -/

theorem W3_main_arg0 : W3 m ρ c (Proc.devRef .tc main_arg0) = (m ((c : Thread nD τ).loc main_arg0)) := by
  show after hostOps0_2 (after hostOps0_1 (after hostOps0 (W0 m ρ c))) (Proc.devRef .tc main_arg0) = _
  rw [ops02_main_arg0, ops01_main_arg0, ops0_main_arg0]

theorem W3_main_arg2 : W3 m ρ c (Proc.devRef .tc main_arg2) = (m ((c : Thread nD τ).loc main_arg2)) := by
  show after hostOps0_2 (after hostOps0_1 (after hostOps0 (W0 m ρ c))) (Proc.devRef .tc main_arg2) = _
  rw [ops02_main_arg2, ops01_main_arg2, ops0_main_arg2]

theorem W3_main_arg3 : W3 m ρ c (Proc.devRef .tc main_arg3) = (m ((c : Thread nD τ).loc main_arg3)) := by
  show after hostOps0_2 (after hostOps0_1 (after hostOps0 (W0 m ρ c))) (Proc.devRef .tc main_arg3) = _
  rw [ops02_main_arg3, ops01_main_arg3, ops0_main_arg3]

theorem W3_main_arg4 : W3 m ρ c (Proc.devRef .tc main_arg4) = (m ((c : Thread nD τ).loc main_arg4)) := by
  show after hostOps0_2 (after hostOps0_1 (after hostOps0 (W0 m ρ c))) (Proc.devRef .tc main_arg4) = _
  rw [ops02_main_arg4, ops01_main_arg4, ops0_main_arg4]

theorem W3_main_arg5 : W3 m ρ c (Proc.devRef .tc main_arg5) = (m ((c : Thread nD τ).loc main_arg5)) := by
  show after hostOps0_2 (after hostOps0_1 (after hostOps0 (W0 m ρ c))) (Proc.devRef .tc main_arg5) = _
  rw [ops02_main_arg5, ops01_main_arg5, ops0_main_arg5]

theorem W3_v3 : W3 m ρ c (Proc.devRef .tc main_v3) = Cert.Spec.srcIdx (F := Ideal) (m ((c : Thread nD τ).loc main_arg1)) := by
  show after hostOps0_2 (after hostOps0_1 (after hostOps0 (W0 m ρ c))) (Proc.devRef .tc main_v3) = _
  rw [ops02_main_v3, ops01_main_v3, ops0_v3]
theorem W3_v6 : W3 m ρ c (Proc.devRef .tc main_v6) = Cert.Spec.dstIdx (F := Ideal) (m ((c : Thread nD τ).loc main_arg1)) := by
  show after hostOps0_2 (after hostOps0_1 (after hostOps0 (W0 m ρ c))) (Proc.devRef .tc main_v6) = _
  rw [ops02_main_v6, ops01_main_v6, ops0_v6]
theorem W3_v31 : W3 m ρ c (Proc.devRef .tc main_v31)
    = Cert.Spec.edgeWeight (F := Ideal) (Cert.Spec.srcIdx (F := Ideal) (m ((c : Thread nD τ).loc main_arg1))) (Cert.Spec.dstIdx (F := Ideal) (m ((c : Thread nD τ).loc main_arg1))) := by
  show after hostOps0_2 (after hostOps0_1 (after hostOps0 (W0 m ρ c))) (Proc.devRef .tc main_v31) = _
  rw [ops02_v31, ops01_v16, ops01_main_v3, ops01_main_v6, ops0_v12, ops0_v15, ops0_cst3, ops0_v3, ops0_v6]
  rfl

/-! ## After region 0 (`W4`) -/

theorem W4_v32 : W4 m ρ c (Proc.devRef .tc main_v32) = Cert.Spec.transform1 (F := Ideal) (m ((c : Thread nD τ).loc main_arg0)) (m ((c : Thread nD τ).loc main_arg2)) := by
  refine (W4_arr m ρ c 2).trans ((Cert.KernelIdeal.Region0.value (V3 m ρ) c).trans ?_)
  show Cert.Spec.transform1 (F := Ideal) (W3 m ρ c (Proc.devRef .tc main_arg0)) (W3 m ρ c (Proc.devRef .tc main_arg2)) = _
  rw [W3_main_arg0, W3_main_arg2]
theorem W4_main_v3 : W4 m ρ c (Proc.devRef .tc main_v3) = W3 m ρ c (Proc.devRef .tc main_v3) := W4_of_ne m ρ c main_v3 (by decide)
theorem W4_main_v6 : W4 m ρ c (Proc.devRef .tc main_v6) = W3 m ρ c (Proc.devRef .tc main_v6) := W4_of_ne m ρ c main_v6 (by decide)
theorem W4_main_v31 : W4 m ρ c (Proc.devRef .tc main_v31) = W3 m ρ c (Proc.devRef .tc main_v31) := W4_of_ne m ρ c main_v31 (by decide)
theorem W4_main_arg3 : W4 m ρ c (Proc.devRef .tc main_arg3) = W3 m ρ c (Proc.devRef .tc main_arg3) := W4_of_ne m ρ c main_arg3 (by decide)
theorem W4_main_arg4 : W4 m ρ c (Proc.devRef .tc main_arg4) = W3 m ρ c (Proc.devRef .tc main_arg4) := W4_of_ne m ρ c main_arg4 (by decide)
theorem W4_main_arg5 : W4 m ρ c (Proc.devRef .tc main_arg5) = W3 m ρ c (Proc.devRef .tc main_arg5) := W4_of_ne m ρ c main_arg5 (by decide)

/-! ## After stretch 1 (`W5`) -/

theorem W5_v45 : W5 m ρ c (Proc.devRef .tc main_v45)
    = Cert.Spec.aggregate64 (F := Ideal) (Cert.Spec.transform1 (F := Ideal) (m ((c : Thread nD τ).loc main_arg0)) (m ((c : Thread nD τ).loc main_arg2)))
        (Cert.Spec.srcIdx (F := Ideal) (m ((c : Thread nD τ).loc main_arg1))) (Cert.Spec.dstIdx (F := Ideal) (m ((c : Thread nD τ).loc main_arg1)))
        (Cert.Spec.edgeWeight (F := Ideal) (Cert.Spec.srcIdx (F := Ideal) (m ((c : Thread nD τ).loc main_arg1))) (Cert.Spec.dstIdx (F := Ideal) (m ((c : Thread nD τ).loc main_arg1)))) := by
  show after hostOps1 (W4 m ρ c) (Proc.devRef .tc main_v45) = _
  rw [ops1_v45, W4_v32, W4_main_v3, W4_main_v6, W4_main_v31, W3_v3, W3_v6, W3_v31]
theorem W5_v46 : W5 m ρ c (Proc.devRef .tc main_v46) = Cert.Spec.rowOf64 (F := Ideal) (m ((c : Thread nD τ).loc main_arg3)) := by
  show after hostOps1 (W4 m ρ c) (Proc.devRef .tc main_v46) = _
  rw [ops1_v46, W4_main_arg3, W3_main_arg3]
  exact reshape_row _ _ _ (by decide)
theorem W5_arg4 : W5 m ρ c (Proc.devRef .tc main_arg4) = (m ((c : Thread nD τ).loc main_arg4)) := by
  show after hostOps1 (W4 m ρ c) (Proc.devRef .tc main_arg4) = _
  rw [ops1_main_arg4, W4_main_arg4, W3_main_arg4]
theorem W5_main_v3 : W5 m ρ c (Proc.devRef .tc main_v3) = W3 m ρ c (Proc.devRef .tc main_v3) := by
  show after hostOps1 (W4 m ρ c) (Proc.devRef .tc main_v3) = _
  rw [ops1_main_v3, W4_main_v3]
theorem W5_main_v6 : W5 m ρ c (Proc.devRef .tc main_v6) = W3 m ρ c (Proc.devRef .tc main_v6) := by
  show after hostOps1 (W4 m ρ c) (Proc.devRef .tc main_v6) = _
  rw [ops1_main_v6, W4_main_v6]
theorem W5_main_v31 : W5 m ρ c (Proc.devRef .tc main_v31) = W3 m ρ c (Proc.devRef .tc main_v31) := by
  show after hostOps1 (W4 m ρ c) (Proc.devRef .tc main_v31) = _
  rw [ops1_main_v31, W4_main_v31]
theorem W5_main_arg5 : W5 m ρ c (Proc.devRef .tc main_arg5) = W3 m ρ c (Proc.devRef .tc main_arg5) := by
  show after hostOps1 (W4 m ρ c) (Proc.devRef .tc main_arg5) = _
  rw [ops1_main_arg5, W4_main_arg5]

/-! ## After region 1 (`W6`) -/

theorem W6_v47 : W6 m ρ c (Proc.devRef .tc main_v47)
    = Cert.Spec.transform2 (F := Ideal)
        (Cert.Spec.aggregate64 (F := Ideal) (Cert.Spec.transform1 (F := Ideal) (m ((c : Thread nD τ).loc main_arg0)) (m ((c : Thread nD τ).loc main_arg2)))
          (Cert.Spec.srcIdx (F := Ideal) (m ((c : Thread nD τ).loc main_arg1))) (Cert.Spec.dstIdx (F := Ideal) (m ((c : Thread nD τ).loc main_arg1)))
          (Cert.Spec.edgeWeight (F := Ideal) (Cert.Spec.srcIdx (F := Ideal) (m ((c : Thread nD τ).loc main_arg1))) (Cert.Spec.dstIdx (F := Ideal) (m ((c : Thread nD τ).loc main_arg1)))))
        (Cert.Spec.rowOf64 (F := Ideal) (m ((c : Thread nD τ).loc main_arg3))) (m ((c : Thread nD τ).loc main_arg4)) := by
  refine (W6_arr m ρ c 3).trans ((Cert.KernelIdeal.Region1.value (V5 m ρ) c).trans ?_)
  show Cert.Spec.transform2 (F := Ideal) (W5 m ρ c (Proc.devRef .tc main_v45)) (W5 m ρ c (Proc.devRef .tc main_v46)) (W5 m ρ c (Proc.devRef .tc main_arg4)) = _
  rw [W5_v45, W5_v46, W5_arg4]
theorem W6_main_v3 : W6 m ρ c (Proc.devRef .tc main_v3) = W3 m ρ c (Proc.devRef .tc main_v3) := (W6_of_ne m ρ c main_v3 (by decide)).trans (W5_main_v3 m ρ c)
theorem W6_main_v6 : W6 m ρ c (Proc.devRef .tc main_v6) = W3 m ρ c (Proc.devRef .tc main_v6) := (W6_of_ne m ρ c main_v6 (by decide)).trans (W5_main_v6 m ρ c)
theorem W6_main_v31 : W6 m ρ c (Proc.devRef .tc main_v31) = W3 m ρ c (Proc.devRef .tc main_v31) := (W6_of_ne m ρ c main_v31 (by decide)).trans (W5_main_v31 m ρ c)
theorem W6_main_arg5 : W6 m ρ c (Proc.devRef .tc main_arg5) = W3 m ρ c (Proc.devRef .tc main_arg5) := (W6_of_ne m ρ c main_arg5 (by decide)).trans (W5_main_arg5 m ρ c)

/-! ## After stretch 2 (`W7`) and region 2 (`W8`) -/

theorem W7_v60 : W7 m ρ c (Proc.devRef .tc main_v60)
    = Cert.Spec.aggregate40 (F := Ideal)
        (Cert.Spec.transform2 (F := Ideal)
          (Cert.Spec.aggregate64 (F := Ideal) (Cert.Spec.transform1 (F := Ideal) (m ((c : Thread nD τ).loc main_arg0)) (m ((c : Thread nD τ).loc main_arg2)))
            (Cert.Spec.srcIdx (F := Ideal) (m ((c : Thread nD τ).loc main_arg1))) (Cert.Spec.dstIdx (F := Ideal) (m ((c : Thread nD τ).loc main_arg1)))
            (Cert.Spec.edgeWeight (F := Ideal) (Cert.Spec.srcIdx (F := Ideal) (m ((c : Thread nD τ).loc main_arg1))) (Cert.Spec.dstIdx (F := Ideal) (m ((c : Thread nD τ).loc main_arg1)))))
          (Cert.Spec.rowOf64 (F := Ideal) (m ((c : Thread nD τ).loc main_arg3))) (m ((c : Thread nD τ).loc main_arg4)))
        (Cert.Spec.srcIdx (F := Ideal) (m ((c : Thread nD τ).loc main_arg1))) (Cert.Spec.dstIdx (F := Ideal) (m ((c : Thread nD τ).loc main_arg1)))
        (Cert.Spec.edgeWeight (F := Ideal) (Cert.Spec.srcIdx (F := Ideal) (m ((c : Thread nD τ).loc main_arg1))) (Cert.Spec.dstIdx (F := Ideal) (m ((c : Thread nD τ).loc main_arg1)))) := by
  show after hostOps2 (W6 m ρ c) (Proc.devRef .tc main_v60) = _
  rw [ops2_v60, W6_v47, W6_main_v3, W6_main_v6, W6_main_v31, W3_v3, W3_v6, W3_v31]
theorem W7_v61 : W7 m ρ c (Proc.devRef .tc main_v61) = Cert.Spec.rowOf40 (F := Ideal) (m ((c : Thread nD τ).loc main_arg5)) := by
  show after hostOps2 (W6 m ρ c) (Proc.devRef .tc main_v61) = _
  rw [ops2_v61, W6_main_arg5, W3_main_arg5]
  exact reshape_row _ _ _ (by decide)

/-- The returned array after the run is the network of the six argument arrays as launched. -/
theorem W8_v62 (hR2 : ∀ (V : (c : Dev nD) → (b : Ref sig .tc) → Buf (Elt Ideal) ((c : Thread nD τ).loc b)) (c : Dev nD),
      (dat2 (F := Ideal) V c).arrAt 2 cfg2.N = Cert.Spec.output (F := Ideal) (V c main_v60) (V c main_v61)) :
    W8 m ρ c (Proc.devRef .tc main_v62)
      = Cert.Spec.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((hR2 (V7 m ρ) c).trans ?_)
  show Cert.Spec.output (F := Ideal) (W7 m ρ c (Proc.devRef .tc main_v60)) (W7 m ρ c (Proc.devRef .tc main_v61)) = _
  rw [W7_v60, W7_v61]
  rfl

end Cert.KernelIdeal.WholeValue

end
-- ==== Proof.Region2.lean ====
/-
  The kernel's third region — bias and row-wise log-softmax — as one function of whole arrays.

  Entry (r, q) of the result depends only on row r of the input: with z(r, k) = a(r, k) + b(0, k) over the row's 40
  entries, M(r) = max(−∞, the fold of max from −∞ over z(r, ·)), s(r, k) = z(r, k) − M(r), the result is
  s(r, q) − log Σ_k exp s(r, k). That expression of a row is `lsmEntry`. The kernel's body computes it for every
  entry of a block of 10000 rows (`pay_apply`: its shape casts, the row broadcast, the two reductions along the row,
  the column casts and column broadcasts read at an entry), and the reference's output layer computes it for every
  entry of the array (`output_apply`: its broadcasts and its two host reductions read at an entry): the same
  operations in the same order, so nothing beyond unfolding is used and no finiteness is asked of the inputs.
  Grid point t handles rows 10000·t … 10000·t + 9999: row p of its block is row 10000·t + p of the array
  (`emb_in`, `emb_out`), the bias row is the one block of its array (`emb_bias`), so what point t writes back is
  block t of the reference's output layer (`flushed_eq`); the ten blocks cover the array (`covered`), hence `value`.
-/
import proofs.«138161_j62259845923389_1_alg».proof.Proof.Spec
import proofs.«138161_j62259845923389_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Region2

open Idealize.ShloMosaic Idealize.ShloMosaic.ValueIdx
open scoped BigOperators

/-! ## One row's log-softmax -/

/-- A row's maximum, taken from −∞ over the row's entries and once more against −∞. -/
def rowMaxOf {n : Nat} (row : Fin n → EReal) : EReal :=
  max (Ideal.ofBits .f32 0xFF800000#32) ((Finset.univ : Finset (Fin n)).fold max (Ideal.ofBits .f32 0xFF800000#32) row)

/-- Entry `q` of a row's log-softmax: (row q − M) − log Σ_k exp(row k − M), with M the row's maximum. -/
def lsmEntry {n : Nat} (row : Fin n → EReal) (q : Fin n) : EReal :=
  (row q - rowMaxOf row) - Ideal.log (∑ k : Fin n, Ideal.exp (row k - rowMaxOf row))

/-! ## Layout: a column of row values, and the reduced axis put back -/

/-- Row `p` of a matrix reduced along its columns, with column `k` put back, is entry (p, k). -/
theorem lift_col {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- An `[m]` vector cast to the column `[m, 1]` reads, at `(p, u)`, the vector at `p`. -/
theorem shapeCast_col_apply {α : Type} {m : Nat} (x : (⟨1, ![m]⟩ : Shape).Idx → α)
    (h : (⟨1, ![m]⟩ : Shape).ShapeCasts ⟨2, ![m, 1]⟩) (p : Fin m) (u : Fin 1) :
    shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[m, 1]` broadcast to `[m, n]` reads, at `(p, q)`, the column at row `p`. -/
theorem broadcastTo_col_apply {α : Type} {m n : Nat} (v : (⟨2, ![m, 1]⟩ : Shape).Idx → α)
    (h : (⟨2, ![m, 1]⟩ : Shape).Broadcasts ⟨2, ![m, n]⟩) (p : Fin m) (q : Fin n) :
    broadcastTo ⟨2, ![m, n]⟩ v h (ix2 p q) = v (ix2 p (0 : Fin 1)) := by
  refine broadcastTo_apply v h (ix2 p q) (ix2 p (0 : Fin 1)) fun ax => ?_
  match ax with
  | ⟨0, _⟩ =>
    show p.val = if m = 1 then 0 else p.val
    split
    · have := p.isLt; omega
    · rfl
  | ⟨1, _⟩ => rfl

/-! ## The two reductions along a row, on the vector unit -/

/-- A `maximumf` reduction along the columns, at row `p`: the fold of `max` from −∞ over the row. -/
theorem multiReduction_max_row {m n : Nat} (z : FVec Ideal ⟨2, ![m, n]⟩ .f32)
    (h : (⟨2, ![m, n]⟩ : Shape).Reduces [1] (⟨1, ![m]⟩ : Shape)) (hφ : FKind.Formats .f32)
    (hacc : (0xFF800000#32 : BitVec 32) = FKind.maximumf.neutral .f32 hφ) (p : Fin m) :
    multiReduction .maximumf [1] ⟨1, ![m]⟩ z 0xFF800000#32 h hφ hacc (ix1 p)
      = (Finset.univ : Finset (Fin n)).fold max (Ideal.ofBits .f32 0xFF800000#32) (fun k : Fin n => z (ix2 p k)) := by
  refine (Ideal.multiReduction_maximumf_single z _ h hφ hacc (ix1 p)).trans ?_
  have hf : (z ∘ h.lift (ix1 p)) = fun k : Fin n => z (ix2 p k) := funext fun k => congrArg z (lift_col h p k)
  exact congrArg (fun f => Finset.fold max (Ideal.ofBits .f32 0xFF800000#32) f (Finset.univ : Finset (Fin n))) hf

/-- An `add` reduction along the columns, at row `p`: the sum over the row. -/
theorem multiReduction_add_row {m n : Nat} (e : FVec Ideal ⟨2, ![m, n]⟩ .f32)
    (h : (⟨2, ![m, n]⟩ : Shape).Reduces [1] (⟨1, ![m]⟩ : Shape)) (hφ : FKind.Formats .f32)
    (hacc : (0x00000000#32 : BitVec 32) = FKind.add.neutral .f32 hφ) (p : Fin m) :
    multiReduction .add [1] ⟨1, ![m]⟩ e 0x00000000#32 h hφ hacc (ix1 p) = ∑ k : Fin n, e (ix2 p k) := by
  refine (Ideal.multiReduction_add_single e _ h hφ hacc (ix1 p)).trans ?_
  exact Finset.sum_congr rfl fun k _ => congrArg e (lift_col h p k)

/-! ## The exponential and the logarithm at an entry: the extended reals' functions on either unit -/

theorem exp_apply {s : Shape} (x : FVec Ideal s .f32) (i : s.Idx) : exp x i = Ideal.exp (x i) := rfl
theorem log_apply {s : Shape} (x : FVec Ideal s .f32) (i : s.Idx) : log x i = Ideal.log (x i) := rfl
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-! ## The host's layout operations and reductions along a row -/

/-- A `[1, n]` row broadcast in dimensions (0, 1) to `[m, n]` reads, at `(r, k)`, the row at `k`. -/
theorem broadcastInDim_row_apply {α : Type} {m n : Nat} (v : (⟨2, ![1, n]⟩ : Shape).Idx → α)
    (h : (⟨2, ![1, n]⟩ : Shape).BroadcastsInDim ⟨2, ![m, n]⟩ ![0, 1]) (r : Fin m) (k : Fin n) :
    broadcastInDim ⟨2, ![m, n]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if n = 1 then 0 else k.val
    split
    · have := k.isLt; omega
    · rfl

/-- An `[m]` vector broadcast in dimension 0 to the column `[m, 1]` reads, at `(r, u)`, the vector at `r`. -/
theorem broadcastInDim_toCol_apply {α : Type} {m : Nat} (x : (⟨1, ![m]⟩ : Shape).Idx → α)
    (h : (⟨1, ![m]⟩ : Shape).BroadcastsInDim ⟨2, ![m, 1]⟩ ![0]) (r : Fin m) (u : Fin 1) :
    broadcastInDim ⟨2, ![m, 1]⟩ ![0] h x (ix2 r u) = x (ix1 r) := by
  refine broadcastInDim_apply _ h x (ix2 r u) (ix1 r) fun ax => ?_
  match ax with
  | ⟨0, _⟩ =>
    show r.val = if m = 1 then 0 else r.val
    split
    · have := r.isLt; omega
    · rfl

/-- A column `[m, 1]` broadcast in dimensions (0, 1) to `[m, n]` reads, at `(r, q)`, the column at row `r`. -/
theorem broadcastInDim_col_apply {α : Type} {m n : Nat} (v : (⟨2, ![m, 1]⟩ : Shape).Idx → α)
    (h : (⟨2, ![m, 1]⟩ : Shape).BroadcastsInDim ⟨2, ![m, n]⟩ ![0, 1]) (r : Fin m) (q : Fin n) :
    broadcastInDim ⟨2, ![m, n]⟩ ![0, 1] h v (ix2 r q) = v (ix2 r (0 : Fin 1)) := by
  refine broadcastInDim_apply _ h v (ix2 r q) (ix2 r (0 : Fin 1)) fun ax => ?_
  match ax with
  | ⟨0, _⟩ =>
    show r.val = if m = 1 then 0 else r.val
    split
    · have := r.isLt; omega
    · rfl
  | ⟨1, _⟩ => rfl

/-- A scalar broadcast to a vector reads the scalar. -/
theorem broadcastInDim_scalar_vec_apply {α : Type} {m : Nat} (x : (⟨0, ![]⟩ : Shape).Idx → α)
    (h : (⟨0, ![]⟩ : Shape).BroadcastsInDim ⟨1, ![m]⟩ ![]) (r : Fin m) :
    broadcastInDim ⟨1, ![m]⟩ ![] h x (ix1 r) = x ix0 :=
  broadcastInDim_scalar_apply h x (ix1 r)

/-- The host's shape fact for a reduction along the columns gives the vector unit's. -/
theorem reduces_of_reducesTo {m n : Nat} (h' : (⟨2, ![m, n]⟩ : Shape).ReducesTo [1] (⟨1, ![m]⟩ : Shape)) :
    (⟨2, ![m, n]⟩ : Shape).Reduces [1] (⟨1, ![m]⟩ : Shape) :=
  let ⟨h1, h2⟩ := h'; ⟨h1, Nat.one_pos, h2⟩

/-- The host's reduce with a maximum body along the columns from −∞, at row `r`: the fold of `max` from −∞ over the row. -/
theorem hostReduce_max_row {m n : Nat} (z : FVec Ideal ⟨2, ![m, n]⟩ .f32)
    (h' : (⟨2, ![m, n]⟩ : Shape).ReducesTo [1] (⟨1, ![m]⟩ : Shape)) (hu : 0 < (⟨0, ![]⟩ : Shape).numel) (r : Fin m) :
    Host.reduce FloatOps.maximumf z (constant (F := Ideal) (⟨0, ![]⟩ : Shape) .f32 0xFF800000#32) h' hu (ix1 r)
      = (Finset.univ : Finset (Fin n)).fold max (Ideal.ofBits .f32 0xFF800000#32) (fun k : Fin n => z (ix2 r k)) := by
  have h := reduces_of_reducesTo h'
  rw [Host.reduce_eq_fold_single FloatOps.maximumf z _ h' h hu]
  have hf : (z ∘ h.lift (ix1 r)) = fun k : Fin n => z (ix2 r k) := funext fun k => congrArg z (lift_col h r k)
  exact congrArg (fun f => Finset.fold max (Ideal.ofBits .f32 0xFF800000#32) f (Finset.univ : Finset (Fin n))) hf

/-- The host's float sum along the columns from zero, at row `r`: the sum over the row. -/
theorem hostReduceAdd_row {m n : Nat} (e : FVec Ideal ⟨2, ![m, n]⟩ .f32)
    (h' : (⟨2, ![m, n]⟩ : Shape).ReducesTo [1] (⟨1, ![m]⟩ : Shape)) (hu : 0 < (⟨0, ![]⟩ : Shape).numel) (r : Fin m) :
    Host.reduceAdd e (constant (F := Ideal) (⟨0, ![]⟩ : Shape) .f32 0x00000000#32) h' hu (ix1 r) = ∑ k : Fin n, e (ix2 r k) := by
  have h := reduces_of_reducesTo h'
  rw [hostReduceAdd_apply, Ideal.hostReduceAdd_single h' h, constant_apply, Ideal.ofBits_zero_f32, zero_add]
  exact Finset.sum_congr rfl fun k _ => congrArg e (lift_col h r k)

/-! ## The kernel's arithmetic on one block, stage by stage -/

section Kernel
open Cert.KernelIdeal Cert.KernelIdeal.Gen

/-- The block's logits: the bias row added to every row of the block. -/
def kLogits (x0 : Vec Ideal S10000x40 .f32) (x1 : Vec Ideal S1x40 .f32) : FVec Ideal S10000x40 .f32 :=
  addf (shapeCast S10000x40 x0 shapeCasts_S10000x40_S10000x40)
    (broadcastTo S10000x40 (shapeCast S1x40 x1 shapeCasts_S1x40_S1x40) broadcasts_S1x40_S10000x40)

/-- Every row's maximum. -/
def kRowMax (z : FVec Ideal S10000x40 .f32) : FVec Ideal S10000 .f32 :=
  maximumf (broadcast S10000 (Scalar.ofBits (F := Ideal) .f32 0xFF800000#32))
    (multiReduction .maximumf [1] S10000 z 0xFF800000#32 reduces_S10000x40_S10000 (.inl rfl) rfl)

/-- The logits less their row's maximum. -/
def kShifted (z : FVec Ideal S10000x40 .f32) : FVec Ideal S10000x40 .f32 :=
  subf z (broadcastTo S10000x40 (shapeCast S10000x1 (kRowMax z) shapeCasts_S10000_S10000x1) broadcasts_S10000x1_S10000x40)

/-- The shifted logits less the logarithm of their row's sum of exponentials. -/
def kLsm (s : FVec Ideal S10000x40 .f32) : FVec Ideal S10000x40 .f32 :=
  subf s (broadcastTo S10000x40
    (log (shapeCast S10000x1 (multiReduction .add [1] S10000 (exp s) 0x00000000#32 reduces_S10000x40_S10000 (.inl rfl) rfl) shapeCasts_S10000_S10000x1))
    broadcasts_S10000x1_S10000x40)

/-- The body's stored value is those four stages composed. -/
theorem pay_eq (x0 : Vec Ideal S10000x40 .f32) (x1 : Vec Ideal S1x40 .f32) :
    k2_pay1 (F := Ideal) x0 x1 = kLsm (kShifted (kLogits x0 x1)) := rfl

theorem kLogits_apply (x0 : Vec Ideal S10000x40 .f32) (x1 : Vec Ideal S1x40 .f32) (p : Fin 10000) (k : Fin 40) :
    kLogits x0 x1 (ix2 p k) = x0 (ix2 p k) + x1 (ix2 (0 : Fin 1) k) := by
  unfold kLogits
  rw [addf_apply, shapeCast_self, shapeCast_self, broadcastTo_1b_ab_apply]

theorem kRowMax_apply (z : FVec Ideal S10000x40 .f32) (p : Fin 10000) :
    kRowMax z (ix1 p) = rowMaxOf (fun k : Fin 40 => z (ix2 p k)) := by
  unfold kRowMax rowMaxOf
  rw [maximumf_apply, broadcast_apply]
  exact congrArg (max (Ideal.ofBits .f32 0xFF800000#32)) (multiReduction_max_row z _ _ _ p)

theorem kShifted_apply (z : FVec Ideal S10000x40 .f32) (p : Fin 10000) (q : Fin 40) :
    kShifted z (ix2 p q) = z (ix2 p q) - rowMaxOf (fun k : Fin 40 => z (ix2 p k)) := by
  unfold kShifted
  rw [subf_apply, broadcastTo_col_apply, shapeCast_col_apply, kRowMax_apply]

theorem kLsm_apply (s : FVec Ideal S10000x40 .f32) (p : Fin 10000) (q : Fin 40) :
    kLsm s (ix2 p q) = s (ix2 p q) - Ideal.log (∑ k : Fin 40, Ideal.exp (s (ix2 p k))) := by
  unfold kLsm
  rw [subf_apply, broadcastTo_col_apply, log_apply, shapeCast_col_apply]
  refine (congrArg (fun t => s (ix2 p q) - Ideal.log t) (multiReduction_add_row (exp s) _ _ _ p)).trans ?_
  simp only [exp_apply]

/-- THE KERNEL'S STORED VALUE AT BLOCK ENTRY (p, q): the log-softmax entry of the block's row `p` with the bias row added. -/
theorem pay_apply (x0 : Vec Ideal S10000x40 .f32) (x1 : Vec Ideal S1x40 .f32) (p : Fin 10000) (q : Fin 40) :
    k2_pay1 (F := Ideal) x0 x1 (ix2 p q) = lsmEntry (fun k : Fin 40 => x0 (ix2 p k) + x1 (ix2 (0 : Fin 1) k)) q := by
  rw [pay_eq, kLsm_apply]
  simp only [kShifted_apply, kLogits_apply]
  rfl

end Kernel

/-! ## The reference's stages, read at an entry -/

section Reference

theorem logits_apply (a : FVec Ideal ⟨2, ![100000, 40]⟩ .f32) (brow : FVec Ideal ⟨2, ![1, 40]⟩ .f32) (r : Fin 100000) (k : Fin 40) :
    Cert.Spec.logits (F := Ideal) a brow (ix2 r k) = a (ix2 r k) + brow (ix2 (0 : Fin 1) k) := by
  unfold Cert.Spec.logits
  rw [addf_apply, broadcastInDim_row_apply]

theorem rowMax_apply (z : FVec Ideal ⟨2, ![100000, 40]⟩ .f32) (r : Fin 100000) :
    Cert.Spec.rowMax (F := Ideal) z (ix1 r) = rowMaxOf (fun k : Fin 40 => z (ix2 r k)) := by
  unfold Cert.Spec.rowMax rowMaxOf
  rw [maximumf_apply, broadcastInDim_scalar_vec_apply, constant_apply, hostReduce_max_row]

theorem shifted_apply (z : FVec Ideal ⟨2, ![100000, 40]⟩ .f32) (r : Fin 100000) (q : Fin 40) :
    Cert.Spec.shifted (F := Ideal) z (ix2 r q) = z (ix2 r q) - rowMaxOf (fun k : Fin 40 => z (ix2 r k)) := by
  unfold Cert.Spec.shifted
  rw [subf_apply, broadcastInDim_col_apply, broadcastInDim_toCol_apply, rowMax_apply]

theorem logSoftmax_apply (z : FVec Ideal ⟨2, ![100000, 40]⟩ .f32) (r : Fin 100000) (q : Fin 40) :
    Cert.Spec.logSoftmax (F := Ideal) z (ix2 r q)
      = Cert.Spec.shifted (F := Ideal) z (ix2 r q) - Ideal.log (∑ k : Fin 40, Ideal.exp (Cert.Spec.shifted (F := Ideal) z (ix2 r k))) := by
  unfold Cert.Spec.logSoftmax
  rw [subf_apply, broadcastInDim_col_apply, hostLog_apply, broadcastInDim_toCol_apply, hostReduceAdd_row]
  simp only [hostExp_apply]

/-- THE REFERENCE'S OUTPUT AT ENTRY (r, q): the log-softmax entry of row `r` with the bias row added. -/
theorem output_apply (a : FVec Ideal ⟨2, ![100000, 40]⟩ .f32) (brow : FVec Ideal ⟨2, ![1, 40]⟩ .f32) (r : Fin 100000) (q : Fin 40) :
    Cert.Spec.output (F := Ideal) a brow (ix2 r q) = lsmEntry (fun k : Fin 40 => a (ix2 r k) + brow (ix2 (0 : Fin 1) k)) q := by
  unfold Cert.Spec.output
  rw [logSoftmax_apply]
  simp only [shifted_apply, logits_apply]
  rfl

end Reference

/-! ## From the blocks to the array -/

section Array
open Cert.KernelIdeal Cert.KernelIdeal.Gen Idealize.ShloMosaic.TcCoe Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the ten grid points: at point `t` the input's and the output's block is block
    (t, 0) of the array, the bias row's is its one block. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Block row `p` of point `t` is a row of the array. -/
theorem row_lt (t : Fin cfg2.N) (p : Fin 10000) : 10000 * t.val + p.val < 100000 := by
  have hN : cfg2.N = 10 := N_2
  have := t.isLt; have := p.isLt; omega

/-- Entry (p, k) of the input's block at point `t` sits at (10000·t + p, k) of the array. -/
theorem emb_in (t : Fin cfg2.N) (p : Fin 10000) (k : Fin 40) :
    ((cfg2.win 0).blk t).view.emb (ix2 p k) = (ix2 (⟨10000 * t.val + p.val, row_lt t p⟩ : Fin 100000) k : S100000x40.Idx) := by
  obtain ⟨e0, e1, -, -, -, -⟩ := block_indices t
  funext a; apply Fin.ext
  match a with
  | ⟨0, _⟩ => show win2_0.index t (0 : Fin 2) * 10000 + 1 * p.val = 10000 * t.val + p.val; rw [e0]; omega
  | ⟨1, _⟩ => show win2_0.index t (1 : Fin 2) * 40 + 1 * k.val = k.val; rw [e1]; omega

/-- Entry (0, k) of the bias row's block sits at (0, k) of the row. -/
theorem emb_bias (t : Fin cfg2.N) (k : Fin 40) :
    ((cfg2.win 1).blk t).view.emb (ix2 (0 : Fin 1) k) = (ix2 (0 : Fin 1) k : S1x40.Idx) := by
  obtain ⟨-, -, e0, e1, -, -⟩ := block_indices t
  funext a; apply Fin.ext
  match a with
  | ⟨0, _⟩ => show win2_1.index t (0 : Fin 2) * 1 + 1 * 0 = 0; rw [e0]
  | ⟨1, _⟩ => show win2_1.index t (1 : Fin 2) * 40 + 1 * k.val = k.val; rw [e1]; omega

/-- Entry (p, q) of the output's block at point `t` sits at (10000·t + p, q) of the array. -/
theorem emb_out (t : Fin cfg2.N) (p : Fin 10000) (q : Fin 40) :
    ((cfg2.win 2).blk t).view.emb (ix2 p q) = (ix2 (⟨10000 * t.val + p.val, row_lt t p⟩ : Fin 100000) q : S100000x40.Idx) := by
  obtain ⟨-, -, -, -, e0, e1⟩ := block_indices t
  funext a; apply Fin.ext
  match a with
  | ⟨0, _⟩ => show win2_2.index t (0 : Fin 2) * 10000 + 1 * p.val = 10000 * t.val + p.val; rw [e0]; omega
  | ⟨1, _⟩ => show win2_2.index t (1 : Fin 2) * 40 + 1 * q.val = q.val; rw [e1]; omega

/-- The input's block at point `t`, read at (p, k): the array at (10000·t + p, k). -/
theorem iblk_in_apply (c : Dev nD) (t : Fin cfg2.N) (p : Fin 10000) (k : Fin 40) :
    (iblk2 (F := Ideal) V c 0 t : Vec Ideal S10000x40 .f32) (ix2 p k)
      = (V c main_v60 : S100000x40.Idx → EReal) (ix2 (⟨10000 * t.val + p.val, row_lt t p⟩ : Fin 100000) k) := by
  unfold iblk2
  rw [View.read_apply]
  show V c main_v60 _ = V c main_v60 _
  exact congrArg (V c main_v60) (emb_in t p k)

/-- The bias row's block at point `t`, read at (0, k): the row at (0, k). -/
theorem iblk_bias_apply (c : Dev nD) (t : Fin cfg2.N) (k : Fin 40) :
    (iblk2 (F := Ideal) V c 1 t : Vec Ideal S1x40 .f32) (ix2 (0 : Fin 1) k)
      = (V c main_v61 : S1x40.Idx → EReal) (ix2 (0 : Fin 1) k) := by
  unfold iblk2
  rw [View.read_apply]
  show V c main_v61 _ = V c main_v61 _
  exact congrArg (V c main_v61) (emb_bias t k)

/-- A block of the body's stored value is a block of `B` as soon as `B`'s entries are the rows' log-softmax entries. -/
theorem pay_eq_of_entries (x0 : Vec Ideal S10000x40 .f32) (x1 : Vec Ideal S1x40 .f32) (B : Vec Ideal S10000x40 .f32)
    (h : ∀ (p : Fin 10000) (q : Fin 40), B (ix2 p q) = lsmEntry (fun k : Fin 40 => x0 (ix2 p k) + x1 (ix2 (0 : Fin 1) k)) q) :
    k2_pay1 (F := Ideal) x0 x1 = B := by
  funext j
  obtain ⟨p, q, rfl⟩ : ∃ (p : Fin 10000) (q : Fin 40), j = ix2 p q := ⟨j 0, j 1, eq_ix2 j⟩
  rw [pay_apply, h]

/-- WHAT POINT `t` WRITES BACK is block `t` of the reference's output layer of the two arrays the region reads. -/
theorem flushed_eq (c : Dev nD) (t : Fin cfg2.N) :
    (dat2 (F := Ideal) V c).flushed 2 t
      = ((cfg2.win 2).blk t).view.read (Elt Ideal) (Cert.Spec.output (F := Ideal) (V c main_v60) (V c main_v61)) := by
  show (cfg2.win 2).cut (grid2.coords t) ((dat2 (F := Ideal) V c).after 2 t) = _
  rw [after2_2]
  unfold out2_2
  rw [View.canon_unit_zero zero_offsets]
  simp only [View.ld_unit_zero (S := S10000x40) zero_offsets, View.ld_unit_zero (S := S1x40) zero_offsets]
  show k2_pay1 (F := Ideal) (iblk2 V c 0 t) (iblk2 V c 1 t) = _
  refine pay_eq_of_entries _ _ _ fun p q => ?_
  rw [View.read_apply]
  show Cert.Spec.output (F := Ideal) (V c main_v60) (V c main_v61) (((cfg2.win 2).blk t).view.emb (ix2 p q)) = _
  rw [emb_out t p q, output_apply]
  refine congrArg (fun row : Fin 40 → EReal => lsmEntry row q) (funext fun k => ?_)
  rw [iblk_in_apply V c t p k, iblk_bias_apply V c t k]

/-- An index of the array is in point `t`'s block iff each coordinate is in the block's range on its axis. -/
theorem mem_blk (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v62).slice (win2_2.rect t)).set ↔ _
  rw [View.set_slice_whole, Rect.mem_set_unit]
  exact Iff.rfl

/-- Every entry of the array is in the block of the point that handles its row: point ⌊r / 10000⌋ for row `r`. -/
theorem covered (i : S100000x40.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 40 := (i 1).isLt
  let t : Fin cfg2.N := ⟨(i 0).val / 10000, by rw [hN]; omega⟩
  obtain ⟨-, -, -, -, e0, e1⟩ := block_indices t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; rw [e0, ht]; omega
  | ⟨1, _⟩ => show win2_2.index t (1 : Fin 2) * 40 ≤ (i 1).val ∧ (i 1).val < win2_2.index t (1 : Fin 2) * 40 + 40; rw [e1]; omega

/-- THE REGION'S VALUE: after the ten grid points the output array holds the reference's output layer — the bias row added,
    then the row-wise log-softmax — of the aggregated array and the bias row as the region finds them. -/
theorem value (c : Dev nD) :
    (dat2 (F := Ideal) V c).arrAt 2 cfg2.N = Cert.Spec.output (F := Ideal) (V c main_v60) (V c main_v61) :=
  (dat2 (F := Ideal) V c).arrAt_eq_of_cover 2 _ (fun t _ => flushed_eq V c t) covered

end Array

end Cert.KernelIdeal.Region2

end
-- ==== Proof.ReferenceRun.lean ====
/-
  The reference program's run, read in consecutive stretches of its operation list. Each stretch is a short literal list
  of host operations; what it leaves at its last result buffer is one named stage of the specification applied to the
  contents of the buffers it reads, whatever valuation it starts from, and the buffers it does not write keep their
  contents. Chaining the stretches (the fold over a concatenation is the fold of the folds) gives the whole network at
  the result buffer as a function of the six argument arrays.
-/
import proofs.«138161_j62259845923389_1_alg».proof.Proof.Spec
import proofs.«138161_j62259845923389_1_alg».proof.Proof.RefRunP
import Idealize.ShloMosaic.Lib.StableHlo.Run
import Idealize.ShloMosaic.Lib.Pipeline.Frame

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The first stretch: the edge list's two rows flattened, the self-loops appended. -/
abbrev sA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The second stretch: ones scatter-added at the targets (the in-degrees), and their reciprocal roots where positive. -/
abbrev sB : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- The third stretch: both ends' start indices, the two gathers of the per-node factor, their product. -/
abbrev sC : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The fourth stretch: the first feature transform, gathered at the sources, scaled, scatter-added at the targets. -/
abbrev sE : List (HloOp τ sig (Elt F)) :=
  [ binary main_arg0 main_arg2 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The fifth stretch: the first bias row added, max(·, 0), the second feature transform. -/
abbrev sG : List (HloOp τ sig (Elt F)) :=
  [ unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    binary main_v49 main_arg4 main_v50 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) ]

/-- The sixth stretch: gathered at the sources, scaled, scatter-added at the targets, 40 wide. -/
abbrev sI : List (HloOp τ sig (Elt F)) :=
  [ nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x40 ![0, 1] bcast_S1700000x1_S1700000x40_0_1 : (⟨S1700000x1, .f32⟩ : BufTy).Contents (Elt F) → (⟨S1700000x40, .f32⟩ : BufTy).Contents (Elt F)),
    binary main_v57 main_v59 main_v60 (mulf : (⟨S1700000x40, .f32⟩ : BufTy).Contents (Elt F) → (⟨S1700000x40, .f32⟩ : BufTy).Contents (Elt F) → (⟨S1700000x40, .f32⟩ : BufTy).Contents (Elt F)),
    nullary main_cst_12 (constant S_ .f32 0x00000000#32),
    unary main_cst_12 main_v61 (broadcastInDim S100000x40 ![] bcast_S_S100000x40 : (⟨S_, .f32⟩ : BufTy).Contents (Elt F) → (⟨S100000x40, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

/-- The seventh stretch: the second bias row added. -/
abbrev sJ : List (HloOp τ sig (Elt F)) :=
  [ unary main_arg5 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)) ]

/-- The eighth stretch: every row's maximum, subtracted. -/
abbrev sK : List (HloOp τ sig (Elt F)) :=
  [ TRef.nullary (TRef.of (T := ⟨S_, .f32⟩) main_call2_cst) (constant S_ .f32 0xFF800000#32),
    TRef.binary (TRef.of (T := ⟨S100000x40, .f32⟩) main_v66) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v66) (TRef.of (T := ⟨S100000x40, .f32⟩) main_call2_v4) (TRef.of (T := ⟨S100000x40, .f32⟩) main_call2_v5) subf ]

/-- The last stretch: exp, the row sums, their logarithm, subtracted. -/
abbrev sL : List (HloOp τ sig (Elt F)) :=
  [ TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v67) subf ]

/-- The operation list is its nine stretches in a row. -/
theorem ops_split : (ops : List (HloOp τ sig (Elt F))) = sA ++ (sB ++ (sC ++ (sE ++ (sG ++ (sI ++ (sJ ++ (sK ++ sL))))))) := rfl

/-! ### Two stages the stretches meet half-way

The edge weights are read in two stretches (the per-node factor, then its gathers), and so is the log-softmax (the
shifted logits, then the log of the row sums): the second half of each, as a function of what the first half leaves. -/

/-- Each edge's weight from a given per-node factor: the factor gathered at the edge's two ends, multiplied. -/
def weightOf (inv : (⟨S100000, .f32⟩ : BufTy).Contents (Elt F)) (src dst : (⟨S1700000, .i32⟩ : BufTy).Contents (Elt F)) :
    (⟨S1700000, .f32⟩ : BufTy).Contents (Elt F) :=
  mulf (Host.gather gather_S100000_S1700000x1_S1700000_n_0_n_n_0_1_1 inv (Cert.Spec.startIdx (F := F) src))
    (Host.gather gather_S100000_S1700000x1_S1700000_n_0_n_n_0_1_1 inv (Cert.Spec.startIdx (F := F) dst))

theorem edgeWeight_eq (src dst : (⟨S1700000, .i32⟩ : BufTy).Contents (Elt F)) :
    Cert.Spec.edgeWeight (F := F) src dst = weightOf (Cert.Spec.invSqrtDegree (F := F) dst) src dst := rfl

/-- s − log Σ exp s along each row: the log-softmax of logits whose row maxima are already subtracted. -/
def lseTail (s : (⟨S100000x40, .f32⟩ : BufTy).Contents (Elt F)) : (⟨S100000x40, .f32⟩ : BufTy).Contents (Elt F) :=
  subf s (broadcastInDim S100000x40 ![0, 1] bcast_S100000x1_S100000x40_0_1
    (Host.log (broadcastInDim S100000x1 ![0] bcast_S100000_S100000x1_0
      (Host.reduceAdd (Host.exp s) (constant S_ .f32 0x00000000#32) reducesTo_S100000x40_S100000_d1 h_S_))))

theorem logSoftmax_eq (z : (⟨S100000x40, .f32⟩ : BufTy).Contents (Elt F)) :
    Cert.Spec.logSoftmax (F := F) z = lseTail (Cert.Spec.shifted (F := F) z) := rfl

/-! ### Typed references

A called function's operations read and write their buffers through a transport along the equation between the
buffer's type and the value's; for a literal reference the equation holds by computation and the transport is the
identity. -/

/-- Contents carried to a typed reference's buffer and back are themselves. -/
theorem ofBuf_toBuf {Val : EltTy → Type} {T : BufTy} (x : TRef sig T) (v : T.Contents Val) : x.ofBuf (x.toBuf v) = v := by
  simp only [TRef.ofBuf, TRef.toBuf, cast_cast, cast_eq]

/-- … and so is a value written to the literal reference of the shifted logits. -/
theorem toBuf_v5 (v : (⟨S100000x40, .f32⟩ : BufTy).Contents (Elt F)) :
    (TRef.of (T := ⟨S100000x40, .f32⟩) main_call2_v5).toBuf v = v := rfl

/-! ### What each stretch leaves at its result buffer, from any valuation -/

theorem sA_src (W : Valuation τ sig (Elt F)) :
    after sA W (Proc.devRef .tc main_v3) = Cert.Spec.srcIdx (F := F) (W (Proc.devRef .tc main_arg1)) := by
  after_results_simp <;> rfl

theorem sA_dst (W : Valuation τ sig (Elt F)) :
    after sA W (Proc.devRef .tc main_v6) = Cert.Spec.dstIdx (F := F) (W (Proc.devRef .tc main_arg1)) := by
  after_results_simp <;> rfl

theorem sB_inv (W : Valuation τ sig (Elt F)) :
    after sB W (Proc.devRef .tc main_v16) = Cert.Spec.invSqrtDegree (F := F) (W (Proc.devRef .tc main_v6)) := by
  after_results_simp <;> rfl

theorem sC_wt (W : Valuation τ sig (Elt F)) :
    after sC W (Proc.devRef .tc main_v31)
      = weightOf (F := F) (W (Proc.devRef .tc main_v16)) (W (Proc.devRef .tc main_v3)) (W (Proc.devRef .tc main_v6)) := by
  after_results_simp <;> rfl

theorem sE_agg (W : Valuation τ sig (Elt F)) :
    after sE W (Proc.devRef .tc main_v45)
      = Cert.Spec.aggregate64 (F := F) (Cert.Spec.transform1 (F := F) (W (Proc.devRef .tc main_arg0)) (W (Proc.devRef .tc main_arg2)))
          (W (Proc.devRef .tc main_v3)) (W (Proc.devRef .tc main_v6)) (W (Proc.devRef .tc main_v31)) := by
  after_results_simp <;> rfl

theorem sG_tr (W : Valuation τ sig (Elt F)) :
    after sG W (Proc.devRef .tc main_v50)
      = Cert.Spec.transform2 (F := F) (W (Proc.devRef .tc main_v45)) (Cert.Spec.rowOf64 (F := F) (W (Proc.devRef .tc main_arg3)))
          (W (Proc.devRef .tc main_arg4)) := by
  after_results_simp <;> rfl

theorem sI_agg (W : Valuation τ sig (Elt F)) :
    after sI W (Proc.devRef .tc main_v63)
      = Cert.Spec.aggregate40 (F := F) (W (Proc.devRef .tc main_v50)) (W (Proc.devRef .tc main_v3)) (W (Proc.devRef .tc main_v6))
          (W (Proc.devRef .tc main_v31)) := by
  after_results_simp <;> rfl

theorem sJ_log (W : Valuation τ sig (Elt F)) :
    after sJ W (Proc.devRef .tc main_v66)
      = Cert.Spec.logits (F := F) (W (Proc.devRef .tc main_v63)) (Cert.Spec.rowOf40 (F := F) (W (Proc.devRef .tc main_arg5))) := by
  after_results_simp <;> rfl

/-- The row maximum is a fold over each row's 40 entries, which no step here opens: the transports are removed first,
    so that the two sides are the same operations on the same operands. -/
theorem sK_sh (W : Valuation τ sig (Elt F)) :
    after sK W (Proc.devRef .tc main_call2_v5) = Cert.Spec.shifted (F := F) (W (Proc.devRef .tc main_v66)) := by
  after_results_simp
  simp only [ofBuf_toBuf]
  rw [show (TRef.of (T := ⟨S100000x40, .f32⟩) main_v66).ofBuf (W (Proc.devRef .tc main_v66)) = W (Proc.devRef .tc main_v66) from rfl]
  exact (toBuf_v5 _).trans rfl

theorem sL_out (W : Valuation τ sig (Elt F)) :
    after sL W (Proc.devRef .tc main_v67) = lseTail (F := F) (W (Proc.devRef .tc main_call2_v5)) := by
  after_results_simp <;> rfl

/-! ### What each stretch keeps: every buffer it does not write

The buffers a stretch writes, as a list of references; a reference outside the list keeps its contents. -/

abbrev wA : List (Ref sig .tc) := [main_v0, main_v1, main_v2, main_v3, main_v4, main_v5, main_v6]
abbrev wB : List (Ref sig .tc) := [main_cst, main_v7, main_cst_0, main_v8, main_v9, main_v10, main_cst_1, main_v11, main_v12, main_cst_2, main_v13, main_v14, main_v15, main_cst_3, main_call0_v0, main_call0_v1, main_v16]
abbrev wC : List (Ref sig .tc) := [main_c, main_v17, main_v18, main_c_4, main_v19, main_v20, main_v21, main_v22, main_v23, main_c_5, main_v24, main_v25, main_c_6, main_v26, main_v27, main_v28, main_v29, main_v30, main_v31]
abbrev wE : List (Ref sig .tc) := [main_v32, main_c_7, main_v33, main_v34, main_c_8, main_v35, main_v36, main_v37, main_v38, main_v39, main_v40, main_v41, main_v42, main_cst_9, main_v43, main_v44, main_v45]
abbrev wG : List (Ref sig .tc) := [main_v46, main_v47, main_v48, main_call1_cst, main_call1_v0, main_v49, main_v50]
abbrev wI : List (Ref sig .tc) := [main_c_10, main_v51, main_v52, main_c_11, main_v53, main_v54, main_v55, main_v56, main_v57, main_v58, main_v59, main_v60, main_cst_12, main_v61, main_v62, main_v63]
abbrev wJ : List (Ref sig .tc) := [main_v64, main_v65, main_v66]
abbrev wK : List (Ref sig .tc) := [main_call2_cst, main_call2_v0, main_call2_cst_0, main_call2_v1, main_call2_v2, main_call2_v3, main_call2_v4, main_call2_v5]
abbrev wL : List (Ref sig .tc) := [main_call2_v6, main_call2_cst_1, main_call2_v7, main_call2_v8, main_call2_v9, main_call2_v10, main_v67]

/-- Every operation of a literal stretch writes one buffer, and that buffer is in the stretch's list. -/
macro "writes_in" : tactic =>
  `(tactic| simp only [List.Forall, nullary_writes, unary_writes, binary_writes, ternary_writes, reshape_writes,
      Finset.singleton_subset_iff, List.mem_toFinset, List.map_cons, List.map_nil, List.mem_cons, eq_self_iff_true, true_or, or_true,
      and_self])

theorem sA_kept (W : Valuation τ sig (Elt F)) {r : Ref sig .tc} (hr : r ∉ wA := by decide) :
    after sA W (Proc.devRef .tc r) = W (Proc.devRef .tc r) :=
  after_of_writes_sub sA W (by writes_in) hr
theorem sB_kept (W : Valuation τ sig (Elt F)) {r : Ref sig .tc} (hr : r ∉ wB := by decide) :
    after sB W (Proc.devRef .tc r) = W (Proc.devRef .tc r) :=
  after_of_writes_sub sB W (by writes_in) hr
theorem sC_kept (W : Valuation τ sig (Elt F)) {r : Ref sig .tc} (hr : r ∉ wC := by decide) :
    after sC W (Proc.devRef .tc r) = W (Proc.devRef .tc r) :=
  after_of_writes_sub sC W (by writes_in) hr
theorem sE_kept (W : Valuation τ sig (Elt F)) {r : Ref sig .tc} (hr : r ∉ wE := by decide) :
    after sE W (Proc.devRef .tc r) = W (Proc.devRef .tc r) :=
  after_of_writes_sub sE W (by writes_in) hr
theorem sG_kept (W : Valuation τ sig (Elt F)) {r : Ref sig .tc} (hr : r ∉ wG := by decide) :
    after sG W (Proc.devRef .tc r) = W (Proc.devRef .tc r) :=
  after_of_writes_sub sG W (by writes_in) hr
theorem sI_kept (W : Valuation τ sig (Elt F)) {r : Ref sig .tc} (hr : r ∉ wI := by decide) :
    after sI W (Proc.devRef .tc r) = W (Proc.devRef .tc r) :=
  after_of_writes_sub sI W (by writes_in) hr
theorem sJ_kept (W : Valuation τ sig (Elt F)) {r : Ref sig .tc} (hr : r ∉ wJ := by decide) :
    after sJ W (Proc.devRef .tc r) = W (Proc.devRef .tc r) :=
  after_of_writes_sub sJ W (by writes_in) hr
theorem sK_kept (W : Valuation τ sig (Elt F)) {r : Ref sig .tc} (hr : r ∉ wK := by decide) :
    after sK W (Proc.devRef .tc r) = W (Proc.devRef .tc r) :=
  after_of_writes_sub sK W (by writes_in) hr
theorem sL_kept (W : Valuation τ sig (Elt F)) {r : Ref sig .tc} (hr : r ∉ wL := by decide) :
    after sL W (Proc.devRef .tc r) = W (Proc.devRef .tc r) :=
  after_of_writes_sub sL W (by writes_in) hr

/-! ### The stretches chained -/

/-- A buffer no stretch writes ends as it began. -/
theorem ops_kept (V : Valuation τ sig (Elt F)) {r : Ref sig .tc}
    (hA : r ∉ wA := by decide) (hB : r ∉ wB := by decide) (hC : r ∉ wC := by decide) (hE : r ∉ wE := by decide)
    (hG : r ∉ wG := by decide) (hI : r ∉ wI := by decide) (hJ : r ∉ wJ := by decide) (hK : r ∉ wK := by decide)
    (hL : r ∉ wL := by decide) :
    after ops V (Proc.devRef .tc r) = V (Proc.devRef .tc r) := by
  rw [ops_split, after_append, after_append, after_append, after_append, after_append, after_append, after_append, after_append,
    sL_kept _ hL, sK_kept _ hK, sJ_kept _ hJ, sI_kept _ hI, sG_kept _ hG, sE_kept _ hE, sC_kept _ hC, sB_kept _ hB, sA_kept _ hA]

/-- The result buffer after the whole list: the network of the six argument arrays. Read from the last stretch back to
    the first; at each stretch, its result by its own lemma and the earlier results it passes on by its "kept" lemma. -/
theorem ops_value (V : Valuation τ sig (Elt F)) :
    after ops V (Proc.devRef .tc main_v67)
      = Cert.Spec.network (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, after_append, after_append, after_append, after_append, after_append, after_append, after_append, after_append]
  -- the log-softmax, back to the logits
  rw [sL_out, sK_sh, sJ_log]
  -- the second layer's sum
  rw [sI_agg, sI_kept (r := main_arg5)]
  -- the second transform
  rw [sG_tr, sG_kept (r := main_v3), sG_kept (r := main_v6), sG_kept (r := main_v31), sG_kept (r := main_arg5)]
  -- the first layer's sum
  rw [sE_agg, sE_kept (r := main_v3), sE_kept (r := main_v6), sE_kept (r := main_v31), sE_kept (r := main_arg3),
    sE_kept (r := main_arg4), sE_kept (r := main_arg5)]
  -- the edge weights
  rw [sC_wt, sC_kept (r := main_v3), sC_kept (r := main_v6), sC_kept (r := main_arg0), sC_kept (r := main_arg2),
    sC_kept (r := main_arg3), sC_kept (r := main_arg4), sC_kept (r := main_arg5)]
  rw [sB_inv, sB_kept (r := main_v3), sB_kept (r := main_v6), sB_kept (r := main_arg0), sB_kept (r := main_arg2),
    sB_kept (r := main_arg3), sB_kept (r := main_arg4), sB_kept (r := main_arg5)]
  -- the edges' ends
  rw [sA_src, sA_dst, sA_kept (r := main_arg0), sA_kept (r := main_arg2), sA_kept (r := main_arg3), sA_kept (r := main_arg4),
    sA_kept (r := main_arg5)]
  rw [← edgeWeight_eq, ← logSoftmax_eq]
  rfl

/-! ### The run -/

/-- On every device, for any float values, from any memory with zero counters: every weakly fair execution of the
    reference program terminates with the result buffer at the network of the six arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67)
        = Cert.Spec.network (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (ops_value (launchContents m c)),
      (h c main_arg0).trans (ops_kept (launchContents m c)),
      (h c main_arg1).trans (ops_kept (launchContents m c)),
      (h c main_arg2).trans (ops_kept (launchContents m c)),
      (h c main_arg3).trans (ops_kept (launchContents m c)),
      (h c main_arg4).trans (ops_kept (launchContents m c)),
      (h c main_arg5).trans (ops_kept (launchContents m c))⟩)
    (run_seq scopedRefs_eq scopedSems_eq defs main (fun _ => ops) main_eq (fun _ => ops_sub) m ρ)

end Cert.ReferenceIdeal.RefValue

end
-- ==== Proof.lean ====
/-
  The certificate of a two-layer graph convolution with a row-wise log-softmax: the kernel computes the two feature
  transforms (x · W1, then max(a + b1, 0) · W2) and the final log-softmax of (a + b2) in three gridded regions of ten
  row blocks each, and leaves the normalised neighbourhood sums between them to the same host operations the
  reference uses; the reference does everything on the host. At the ideal values both programs end holding ONE function
  of the six argument arrays, `Cert.Spec.network`: every entry of either result is computed from the same inputs by
  the same operations in the same order — a block row of a region is a row of the whole array, a matrix product into
  a zero accumulator is the host's product, a lane maximum or lane sum is the host's reduction over the row, a bias
  reshaped to one row is the bias broadcast to one row — so no algebraic law beyond these readings is needed, and
  the precondition (finite inputs) is never opened.
  The frames of the two kernel programs are the generated ones; the reference's frame is its run with the result
  dropped; the idealization rewrote nothing, so `preserves` asks nothing.
-/
import proofs.«138161_j62259845923389_1_alg».proof.Defs
import proofs.«138161_j62259845923389_1_alg».proof.Proof.Gen.Kernel
import proofs.«138161_j62259845923389_1_alg».proof.Proof.Gen.Kernel.Skeleton
import proofs.«138161_j62259845923389_1_alg».proof.Proof.Gen.Kernel.Launch
import proofs.«138161_j62259845923389_1_alg».proof.Proof.Gen.Kernel.Points
import proofs.«138161_j62259845923389_1_alg».proof.Proof.Gen.Kernel.Frame
import proofs.«138161_j62259845923389_1_alg».proof.Proof.Gen.KernelIdeal
import proofs.«138161_j62259845923389_1_alg».proof.Proof.Gen.KernelIdeal.Skeleton
import proofs.«138161_j62259845923389_1_alg».proof.Proof.Gen.KernelIdeal.Launch
import proofs.«138161_j62259845923389_1_alg».proof.Proof.Gen.KernelIdeal.Points
import proofs.«138161_j62259845923389_1_alg».proof.Proof.Gen.KernelIdeal.Frame
import proofs.«138161_j62259845923389_1_alg».proof.Proof.Gen.ReferenceIdeal
import proofs.«138161_j62259845923389_1_alg».proof.Proof.Gen.Pre_finite_inputs
import proofs.«138161_j62259845923389_1_alg».proof.Proof.KernelRun
import proofs.«138161_j62259845923389_1_alg».proof.Proof.KernelValue
import proofs.«138161_j62259845923389_1_alg».proof.Proof.Region2
import proofs.«138161_j62259845923389_1_alg».proof.Proof.ReferenceRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both idealized programs end with the network of the (shared) argument arrays in their result. -/
theorem algebraic : Cert.algebraic_KernelIdeal_ReferenceIdeal := by
  intro m ρ m' ρ' _ hagree
  refine ⟨fun c => Cert.Spec.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.WholeValue.W8_v62 m ρ c Cert.KernelIdeal.Region2.value), (h c).2⟩)
      (Cert.KernelIdeal.RunValue.run_W8 m ρ)
  · refine (θ_run Cert.ReferenceIdeal.defs _ _).mono (fun r h c => ⟨(h c).1.trans ?_, (h c).2⟩)
      (Cert.ReferenceIdeal.RefValue.run (F := Ideal) m' ρ')
    obtain ⟨a0, a1, a2, a3, a4, a5⟩ := hagree c
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
